-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S4096x2048 : Shape := ⟨2, ![4096, 2048]⟩
abbrev S4096 : Shape := ⟨1, ![4096]⟩
abbrev S1024x1024 : Shape := ⟨2, ![1024, 1024]⟩
abbrev S1024 : Shape := ⟨1, ![1024]⟩
abbrev S1024x4096 : Shape := ⟨2, ![1024, 4096]⟩
abbrev S2048x1024 : Shape := ⟨2, ![2048, 1024]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S1024 .f32) (main_arg8 : FVec F S2048x1024 .f32) (main_arg9 : FVec F S2048 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x4096 .f32) (main_arg7 : FVec F S1024 .f32) (main_arg8 : FVec F S2048x1024 .f32) (main_arg9 : FVec F S2048 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x4096 .f32) (main_arg2 : FVec F S4096x2048 .f32) (main_arg3 : FVec F S4096 .f32) (main_arg4 : FVec F S1024x1024 .f32) (main_arg5 : FVec F S1024 .f32) (main_arg6 : FVec F S1024x4096 .f32) (main_arg7 : FVec F S1024 .f32) (main_arg8 : FVec F S2048x1024 .f32) (main_arg9 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4096x4096 : Shape := ⟨2, ![4096, 4096]⟩
abbrev S4096x2048 : Shape := ⟨2, ![4096, 2048]⟩
abbrev S4096 : Shape := ⟨1, ![4096]⟩
abbrev S1024x1024 : Shape := ⟨2, ![1024, 1024]⟩
abbrev S1024 : Shape := ⟨1, ![1024]⟩
abbrev S1024x4096 : Shape := ⟨2, ![1024, 4096]⟩
abbrev S2048x1024 : Shape := ⟨2, ![2048, 1024]⟩
abbrev S2048 : Shape := ⟨1, ![2048]⟩
abbrev S4096x1 : Shape := ⟨2, ![4096, 1]⟩
abbrev S128x1024 : Shape := ⟨2, ![128, 1024]⟩
abbrev S128x4096 : Shape := ⟨2, ![128, 4096]⟩
abbrev S128x2048 : Shape := ⟨2, ![128, 2048]⟩
abbrev S128x1 : Shape := ⟨2, ![128, 1]⟩
abbrev S1x1024 : Shape := ⟨2, ![1, 1024]⟩
abbrev S1x2048 : Shape := ⟨2, ![1, 2048]⟩
abbrev S128 : Shape := ⟨1, ![128]⟩
abbrev S_ : Shape := ⟨0, ![]⟩

abbrev nBuf : Space → Nat
  | .hbm => 21
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S4096, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S1024, .f32⟩
  | .hbm, ⟨8, _⟩ => ⟨S2048x1024, .f32⟩
  | .hbm, ⟨9, _⟩ => ⟨S2048, .f32⟩
  | .hbm, ⟨10, _⟩ => ⟨S1024x1024, .bf16⟩
  | .hbm, ⟨11, _⟩ => ⟨S1024x4096, .bf16⟩
  | .hbm, ⟨12, _⟩ => ⟨S2048x1024, .bf16⟩
  | .hbm, ⟨13, _⟩ => ⟨S4096x1, .f32⟩
  | .hbm, ⟨14, _⟩ => ⟨S4096x1024, .f32⟩
  | .hbm, ⟨15, _⟩ => ⟨S4096x1, .f32⟩
  | .hbm, ⟨16, _⟩ => ⟨S4096x1, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S128x4096, .f32⟩
  | .local _ .vmem, ⟨3, _⟩ => ⟨S128x4096, .f32⟩
  | .local _ .vmem, ⟨4, _⟩ => ⟨S1024x1024, .bf16⟩
  | .local _ .vmem, ⟨5, _⟩ => ⟨S1024, .f32⟩
  | .local _ .vmem, ⟨6, _⟩ => ⟨S1024x4096, .bf16⟩
  | .local _ .vmem, ⟨7, _⟩ => ⟨S1024, .f32⟩
  | .local _ .vmem, ⟨8, _⟩ => ⟨S2048x1024, .bf16⟩
  | .local _ .vmem, ⟨9, _⟩ => ⟨S2048, .f32⟩
  | .local _ .vmem, ⟨10, _⟩ => ⟨S128x2048, .f32⟩
  | .local _ .vmem, ⟨11, _⟩ => ⟨S128x2048, .f32⟩
  | .local _ .vmem, ⟨12, _⟩ => ⟨S128x1, .f32⟩
  | .local _ .vmem, ⟨13, _⟩ => ⟨S128x1, .f32⟩
  | .local _ .vmem, ⟨14, _⟩ => ⟨S128x1024, .f32⟩
  | .local _ .vmem, ⟨15, _⟩ => ⟨S128x1024, .f32⟩
  | .local _ .vmem, ⟨16, _⟩ => ⟨S128x1, .f32⟩
  | .local _ .vmem, ⟨17, _⟩ => ⟨S128x1, .f32⟩
  | .local _ .vmem, ⟨18, _⟩ => ⟨S128x1, .f32⟩
  | .local _ .vmem, ⟨19, _⟩ => ⟨S128x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S4096_S4096x1 : S4096.ShapeCasts S4096x1
  inb_S128x1024_S128x1024_0_0 : ∀ a, (![0, 0] : Fin 2 → Nat) a + S128x1024.size a ≤ S128x1024.size a
  h_S128x1024 : 0 < S128x1024.numel
  inb_S128x4096_S128x4096_0_0 : ∀ a, (![0, 0] : Fin 2 → Nat) a + S128x4096.size a ≤ S128x4096.size a
  h_S128x4096 : 0 < S128x4096.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S128x2048_S128x2048_0_0 : ∀ a, (![0, 0] : Fin 2 → Nat) a + S128x2048.size a ≤ S128x2048.size a
  h_S128x2048 : 0 < S128x2048.numel
  reduces_S128x2048_S128 : S128x2048.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S4096x1_S4096 : S4096x1.ShapeCasts S4096
  reducesTo_S4096_S_d0 : S4096.ReducesTo [0] S_
  h_S_ : 0 < S_.numel
  dot_S128x1024_S1024x1024_S128x1024_1_1_0_0_n_n_wf : DotDims.WF S128x1024 S1024x1024 S128x1024 [1] [1] [0] [0] [] []
  dot_S128x4096_S1024x4096_S128x1024_1_1_0_0_n_n_wf : DotDims.WF S128x4096 S1024x4096 S128x1024 [1] [1] [0] [0] [] []
  dot_S128x1024_S2048x1024_S128x2048_1_1_0_0_n_n_wf : DotDims.WF S128x1024 S2048x1024 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x1024.size a ≤ S2048x1024.size a
  hwx0_6 : ∀ i : grid0.Coords, EltTy.bits .bf16 = 32 ∨ (Rect.block (s := S2048x1024) S2048x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S4096x2048.size a
  hwx0_8 : ∀ i : grid0.Coords, EltTy.bits .f32 = 32 ∨ (Rect.block (s := S4096x2048) S128x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S4096x1.size a
  hwx0_9 : ∀ i : grid0.Coords, EltTy.bits .f32 = 32 ∨ (Rect.block (s := S4096x1) S128x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1024.size a ≤ S4096x1024.size a
  hwx0_10 : ∀ i : grid0.Coords, EltTy.bits .f32 = 32 ∨ (Rect.block (s := S4096x1024) S128x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S4096x1.size a
  hwx0_11 : ∀ i : grid0.Coords, EltTy.bits .f32 = 32 ∨ (Rect.block (s := S4096x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S4096x1.size a
  hwx0_12 : ∀ i : grid0.Coords, EltTy.bits .f32 = 32 ∨ (Rect.block (s := S4096x1) S128x1.size (cc0_transform_12 i) (hinb0_12 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S128x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S128x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S128x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S128x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_2) S128x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S4096x2048 : Shape := ⟨2, ![4096, 2048]⟩
abbrev S4096 : Shape := ⟨1, ![4096]⟩
abbrev S1024x1024 : Shape := ⟨2, ![1024, 1024]⟩
abbrev S1024 : Shape := ⟨1, ![1024]⟩
abbrev S1024x4096 : Shape := ⟨2, ![1024, 4096]⟩
abbrev S2048x1024 : Shape := ⟨2, ![2048, 1024]⟩
abbrev S2048 : Shape := ⟨1, ![2048]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x2048, .f32⟩
  | .hbm, ⟨3, _⟩ => ⟨S4096, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S1024, .f32⟩
  | .hbm, ⟨8, _⟩ => ⟨S2048x1024, .f32⟩
  | .hbm, ⟨9, _⟩ => ⟨S2048, .f32⟩
  | .hbm, ⟨10, _⟩ => ⟨S1024x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S_, .f32⟩
  | .hbm, ⟨55, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S1024x4096_S4096x1024_1_0 : S1024x4096.Transposes [1, 0] S4096x1024
  transposes_S2048x1024_S1024x2048_1_0 : S2048x1024.Transposes [1, 0] S1024x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  reducesTo_S4096x2048_S4096_d1 : S4096x2048.ReducesTo [1] S4096
  h_S_ : 0 < S_.numel
  bcast_S_S4096 : S_.BroadcastsInDim S4096 (![] : Fin 0 → Fin S4096.rank)
  reducesTo_S4096_S_d0 : S4096.ReducesTo [0] S_
  dot_S4096x1024_S1024x1024_S4096x1024_1_0_0_1_n_n_wf : DotDims.WF S4096x1024 S1024x1024 S4096x1024 [1] [0] [0] [1] [] []
  dot_S4096x4096_S4096x1024_S4096x1024_1_0_0_1_n_n_wf : DotDims.WF S4096x4096 S4096x1024 S4096x1024 [1] [0] [0] [1] [] []
  dot_S4096x1024_S1024x2048_S4096x2048_1_0_0_1_n_n_wf : DotDims.WF S4096x1024 S1024x2048 S4096x2048 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf

class Facts : Prop extends Facts₀ where

variable [Facts]
-- ==== Proof.Spec.lean ====
/-
  The mathematics both programs compute, stated once over the extended reals.

  One step of a recurrent student model followed by a binary cross entropy.  With row p of the state s, of the
  input x and of the one-hot question vector y, and with the label t(p):

    hidden(p, q) = tanh ( ((sum_k s(p,k) W_t(q,k) + sum_k x(p,k) W_x(q,k)) + b_t(q)) + b_x(q) )
    pred(p)      = sum_j logistic ( sum_k hidden(p,k) W_y(j,k) + b_y(j) ) * y(p,j)
    loss(p)      = t(p) * max (log pred(p)) (-100) + (1 - t(p)) * max (log (1 + (0 - pred(p)))) (-100)
    err          = sum_p (0 - loss(p))

  Every entry depends on ONE row of the activations: hiddenRow, predRow below take that row as functions of the
  column.  The whole-array functions read the rows out of arrays indexed by coordinates.
  The literals 1 and -100 stay the words the programs print; the zero word is the real 0.
-/
import Idealize.ShloMosaic.PureOps.Ideal
import Idealize.ShloMosaic.Lib.ValueIdx

noncomputable section

namespace Cert.Spec

open Idealize.ShloMosaic Idealize.ShloMosaic.ValueIdx

/-- The clamp -100 and the unit 1, as the single-precision words both programs print. -/
abbrev cM100 : EReal := Ideal.ofBits .f32 0xC2C80000#32
abbrev cOne : EReal := Ideal.ofBits .f32 0x3F800000#32

/-- Rank-2 and rank-1 arrays of extended reals, indexed by coordinates. -/
abbrev A2 (a b : ℕ) : Type := (⟨2, ![a, b]⟩ : Shape).Idx → EReal
abbrev A1 (a : ℕ) : Type := (⟨1, ![a]⟩ : Shape).Idx → EReal

/-! ## One row -/

/-- Entry q of the new hidden state of a row with state s and input x. -/
def hiddenRow (s : Fin 1024 → EReal) (x : Fin 4096 → EReal) (Wt : Fin 1024 → Fin 1024 → EReal) (bt : Fin 1024 → EReal)
    (Wx : Fin 1024 → Fin 4096 → EReal) (bx : Fin 1024 → EReal) (q : Fin 1024) : EReal :=
  Ideal.tanh ((((∑ k : Fin 1024, s k * Wt q k) + ∑ k : Fin 4096, x k * Wx q k) + bt q) + bx q)

/-- The predicted probability of a row with hidden state h and question vector y. -/
def predRow (h : Fin 1024 → EReal) (Wy : Fin 2048 → Fin 1024 → EReal) (bq : Fin 2048 → EReal) (y : Fin 2048 → EReal) : EReal :=
  ∑ j : Fin 2048, Ideal.logistic ((∑ k : Fin 1024, h k * Wy j k) + bq j) * y j

/-- The clamped log-likelihood of a label t under a predicted probability pr. -/
def loss (pr t : EReal) : EReal :=
  t * max (Ideal.log pr) cM100 + (cOne - t) * max (Ideal.log1p (0 - pr)) cM100

/-- A row's cross entropy: the log-likelihood negated as a difference from zero. -/
def bce (pr t : EReal) : EReal := 0 - loss pr t

/-! ## The arrays -/

section Arrays

variable (st : A2 4096 1024) (X : A2 4096 4096) (Wt : A2 1024 1024) (bt : A1 1024) (Wx : A2 1024 4096) (bx : A1 1024)
  (Wy : A2 2048 1024) (bq : A1 2048) (Y : A2 4096 2048)

/-- The hidden state at row p, column q. -/
def hiddenAt (p : Fin 4096) (q : Fin 1024) : EReal :=
  hiddenRow (fun k => st (ix2 p k)) (fun k => X (ix2 p k)) (fun q k => Wt (ix2 q k)) (fun q => bt (ix1 q))
    (fun q k => Wx (ix2 q k)) (fun q => bx (ix1 q)) q

/-- The prediction of row p. -/
def predAt (p : Fin 4096) : EReal :=
  predRow (fun k => hiddenAt st X Wt bt Wx bx p k) (fun j k => Wy (ix2 j k)) (fun j => bq (ix1 j)) (fun j => Y (ix2 p j))

/-- The hidden state, [4096, 1024]. -/
def hiddenArr : A2 4096 1024 := fun i => hiddenAt st X Wt bt Wx bx (i 0) (i 1)

/-- The predictions as a column [4096, 1] and as a vector [4096]. -/
def predCol : A2 4096 1 := fun i => predAt st X Wt bt Wx bx Wy bq Y (i 0)
def predVec : A1 4096 := fun i => predAt st X Wt bt Wx bx Wy bq Y (i 0)

/-- The rows' cross entropies as a column [4096, 1], the labels a column too. -/
def bceCol (tc : A2 4096 1) : A2 4096 1 := fun i => bce (predAt st X Wt bt Wx bx Wy bq Y (i 0)) (tc i)

/-- The error: the rows' cross entropies summed. -/
def errSum (t : A1 4096) : EReal := ∑ p : Fin 4096, bce (predAt st X Wt bt Wx bx Wy bq Y p) (t (ix1 p))

/-- The error in the other arrangement: the sum of the log-likelihoods, negated once. -/
def errNeg (t : A1 4096) : EReal := -(∑ p : Fin 4096, loss (predAt st X Wt bt Wx bx Wy bq Y p) (t (ix1 p)))

/-- The error as a rank-0 array. -/
def errArr (t : A1 4096) : (⟨0, ![]⟩ : Shape).Idx → EReal := fun _ => errSum st X Wt bt Wx bx Wy bq Y t

end Arrays

end Cert.Spec

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibTileMask.lean ====
import Idealize.ShloMosaic.Lib.ValueIdx
import Idealize.ShloMosaic.Lib.ValueLayout
import Idealize.ShloMosaic.Lib.Pipeline.Value
noncomputable section
namespace Cert.TileMask
open Idealize.ShloMosaic Idealize.ShloMosaic.ValueIdx

/-- A natural number below 2^31, written as a 32-bit word and read back signed, is itself. -/
private theorem toInt_ofNat_small (m : ℕ) (h : m < 2 ^ 31) : (BitVec.ofNat 32 m).toInt = (m : ℤ) := by
  have hm : m % 2 ^ 32 = m := Nat.mod_eq_of_lt (by omega)
  rw [BitVec.toInt_eq_toNat_cond, BitVec.toNat_ofNat, hm]
  split
  · rfl
  · omega

/-- In tile v of width W, the test "global column v·W + j is below n" (a signed 32-bit comparison of v·W + iota against n, all below 2^31) reads 1 exactly when v·W + j < n. -/
theorem col_lt_apply {a b : ℕ} (hio : (⟨2, ![a, b]⟩ : Shape).Iotas .tc 32 [(1 : Fin 2)]) (v W n : ℕ)
    (hv : v * W + b < 2 ^ 31) (hn : n < 2 ^ 31) (p : Fin a) (j : Fin b) :
    cmpi .slt (addi (broadcast ⟨2, ![a, b]⟩ (Scalar.muli (BitVec.ofNat 32 v) (BitVec.ofNat 32 W))) (iota .tc ⟨2, ![a, b]⟩ 32 [1] hio))
        (broadcast ⟨2, ![a, b]⟩ (BitVec.ofNat 32 n)) (ix2 p j)
      = if v * W + j.val < n then 1#1 else 0#1 := by
  have hj := j.isLt
  -- at the index (p, j) the comparison is the signed comparison of the words v·W + (iota at (p, j)) and n
  show IntOp.cmpi .slt (IntOp.addi (Scalar.muli (BitVec.ofNat 32 v) (BitVec.ofNat 32 W))
      (iota .tc ⟨2, ![a, b]⟩ 32 [1] hio (ix2 p j))) (BitVec.ofNat 32 n) = _
  -- the iota along axis 1 reads the column coordinate j
  rw [iota_single_apply]
  show BitVec.ofBool ((BitVec.ofNat 32 v * BitVec.ofNat 32 W + BitVec.ofNat 32 j.val).slt (BitVec.ofNat 32 n)) = _
  -- the word arithmetic is the arithmetic of naturals, and both sides read signed are the naturals themselves
  rw [← BitVec.ofNat_mul, ← BitVec.ofNat_add, BitVec.slt, toInt_ofNat_small _ (by omega), toInt_ofNat_small _ hn]
  by_cases h : v * W + j.val < n
  · have h' : ((v * W + j.val : ℕ) : ℤ) < (n : ℤ) := by exact_mod_cast h
    rw [if_pos h, decide_eq_true h']
    rfl
  · have h' : ¬ ((v * W + j.val : ℕ) : ℤ) < (n : ℤ) := by exact_mod_cast h
    rw [if_neg h, decide_eq_false h']
    rfl

/-- A vector [b] cast to a row [1, b] and spread down the rows to [a, b] reads, at (p, j), the vector's entry j. -/
theorem row_bcast_apply {α : Type} {a b : ℕ} (x : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (j : Fin b) :
    broadcastTo ⟨2, ![a, b]⟩ (shapeCast ⟨2, ![1, b]⟩ x hc) hb (ix2 p j) = x (ix1 j) := by
  rw [broadcastTo_1b_ab_apply, shapeCast_a_1a_apply]

/-- The column test at 1008 rows, tiles of 4096 columns, fewer than 13 tiles and 50257 columns in all. -/
example (v : ℕ) (hv : v < 13) (p : Fin 1008) (j : Fin 4096) :
    cmpi .slt (addi (broadcast ⟨2, ![1008, 4096]⟩ (Scalar.muli (BitVec.ofNat 32 v) 4096#32))
        (iota .tc ⟨2, ![1008, 4096]⟩ 32 [1] (by decide))) (broadcast ⟨2, ![1008, 4096]⟩ 50257#32) (ix2 p j)
      = if v * 4096 + j.val < 50257 then 1#1 else 0#1 :=
  col_lt_apply (by decide) v 4096 50257 (by omega) (by norm_num) p j

end Cert.TileMask
end
-- ==== Proof.PayHidden.lean ====
/-
  The new hidden state of a block of 128 rows, read at an entry.

  `pay2_apply`: over the extended reals, the first value the block's body stores, read at row p and column q, is

    tanh ( ((sum_k s(p,k) W_t(q,k) + sum_k x(p,k) W_x(q,k)) + b_t(q)) + b_x(q) ).

  Both matrix products contract the SECOND axis of both operands (row p of the activations against ROW q of the weights)
  into a zero accumulator; the rounding of the activations to half width is the identity over the extended reals; the
  shape casts of the weights to their own shape are the identity; each bias is a vector [1024] cast to a row [1, 1024]
  and spread down the 128 rows, so that at (p, q) it reads its entry q.
-/
import proofs.«139376_j80229989089777_2_alg».proof.Proof.Gen.KernelIdeal.Skeleton
import proofs.«139376_j80229989089777_2_alg».proof.Proof.Spec
import proofs.«139376_j80229989089777_2_alg».proof.Proof.LibMatmulRows
import proofs.«139376_j80229989089777_2_alg».proof.Proof.LibTileMask

noncomputable section

namespace Cert.KernelIdeal.Pay

open Idealize.ShloMosaic Idealize.ShloMosaic.ValueIdx Cert.KernelIdeal Cert.KernelIdeal.Gen

/-! ## The index facts of the two dimension records

Each record contracts axis 1 of both operands and keeps axis 0 of both: the left index takes the output's row and the
contraction position, the right index the output's column and the contraction position. -/

section State

private abbrev dS := dot_S128x1024_S1024x1024_S128x1024_1_1_0_0_n_n

private theorem dS_l0 (i : S128x1024.Idx) (c : dS.contr.Idx) : (dS.lhsIdx i c 0).val = (i 0).val := by
  unfold DotDims.lhsIdx
  rw [dif_neg (show ¬(0 : Fin S128x1024.rank) ∈ dS.lhsBatch by decide),
    dif_pos (show (0 : Fin S128x1024.rank) ∈ dS.lhsNonContracting by decide)]
  rfl

private theorem dS_l1 (i : S128x1024.Idx) (c : dS.contr.Idx) : (dS.lhsIdx i c 1).val = (c ⟨0, by decide⟩).val :=
  dS.lhsIdx_val_of_single rfl i c

private theorem dS_r0 (i : S128x1024.Idx) (c : dS.contr.Idx) : (dS.rhsIdx i c 0).val = (i 1).val := by
  unfold DotDims.rhsIdx
  rw [dif_neg (show ¬(0 : Fin S1024x1024.rank) ∈ dS.rhsBatch by decide),
    dif_pos (show (0 : Fin S1024x1024.rank) ∈ dS.rhsNonContracting by decide)]
  rfl

private theorem dS_r1 (i : S128x1024.Idx) (c : dS.contr.Idx) : (dS.rhsIdx i c 1).val = (c ⟨0, by decide⟩).val :=
  dS.rhsIdx_val_of_single rfl i c

end State

section Input

private abbrev dX := dot_S128x4096_S1024x4096_S128x1024_1_1_0_0_n_n

private theorem dX_l0 (i : S128x1024.Idx) (c : dX.contr.Idx) : (dX.lhsIdx i c 0).val = (i 0).val := by
  unfold DotDims.lhsIdx
  rw [dif_neg (show ¬(0 : Fin S128x4096.rank) ∈ dX.lhsBatch by decide),
    dif_pos (show (0 : Fin S128x4096.rank) ∈ dX.lhsNonContracting by decide)]
  rfl

private theorem dX_l1 (i : S128x1024.Idx) (c : dX.contr.Idx) : (dX.lhsIdx i c 1).val = (c ⟨0, by decide⟩).val :=
  dX.lhsIdx_val_of_single rfl i c

private theorem dX_r0 (i : S128x1024.Idx) (c : dX.contr.Idx) : (dX.rhsIdx i c 0).val = (i 1).val := by
  unfold DotDims.rhsIdx
  rw [dif_neg (show ¬(0 : Fin S1024x4096.rank) ∈ dX.rhsBatch by decide),
    dif_pos (show (0 : Fin S1024x4096.rank) ∈ dX.rhsNonContracting by decide)]
  rfl

private theorem dX_r1 (i : S128x1024.Idx) (c : dX.contr.Idx) : (dX.rhsIdx i c 1).val = (c ⟨0, by decide⟩).val :=
  dX.rhsIdx_val_of_single rfl i c

end Input

/-! ## The two products and the entry -/

/-- The state's product at (p, q): row p of the state against row q of its weights. -/
private theorem state_prod (v0 : Vec Ideal S128x1024 .f32) (v4 : Vec Ideal S1024x1024 .bf16) (p : Fin 128) (q : Fin 1024) :
    FloatOps.matmul dS none (truncf .bf16 v0 Facts₀.bitsLt_bf16_f32 : FVec Ideal S128x1024 .bf16)
        (shapeCast S1024x1024 v4 Facts₀.shapeCasts_S1024x1024_S1024x1024 : FVec Ideal S1024x1024 .bf16) (constant S128x1024 .f32 0x00000000#32) (ix2 p q)
      = ∑ k : Fin 1024, v0 (ix2 p k) * v4 (ix2 q k) := by
  rw [shapeCast_self]
  exact Cert.MatmulRows.matmul_rows_rows dS rfl rfl dS_l0 dS_l1 dS_r0 dS_r1 none _ _ p q

/-- The input's product at (p, q): row p of the input against row q of its weights. -/
private theorem input_prod (v2 : Vec Ideal S128x4096 .f32) (v7 : Vec Ideal S1024x4096 .bf16) (p : Fin 128) (q : Fin 1024) :
    FloatOps.matmul dX none (truncf .bf16 v2 Facts₀.bitsLt_bf16_f32 : FVec Ideal S128x4096 .bf16)
        (shapeCast S1024x4096 v7 Facts₀.shapeCasts_S1024x4096_S1024x4096 : FVec Ideal S1024x4096 .bf16) (constant S128x1024 .f32 0x00000000#32) (ix2 p q)
      = ∑ k : Fin 4096, v2 (ix2 p k) * v7 (ix2 q k) := by
  rw [shapeCast_self]
  exact Cert.MatmulRows.matmul_rows_rows dX rfl rfl dX_l0 dX_l1 dX_r0 dX_r1 none _ _ p q

theorem pay2_apply (v0 : Vec Ideal S128x1024 .f32) (v2 : Vec Ideal S128x4096 .f32) (v4 : Vec Ideal S1024x1024 .bf16)
    (v7 : Vec Ideal S1024x4096 .bf16) (v11 : Vec Ideal S1024 .f32) (v15 : Vec Ideal S1024 .f32) (p : Fin 128) (q : Fin 1024) :
    k0_pay2 (F := Ideal) v0 v2 v4 v7 v11 v15 (ix2 p q)
      = Cert.Spec.hiddenRow (fun k => v0 (ix2 p k)) (fun k => v2 (ix2 p k)) (fun q k => v4 (ix2 q k)) (fun q => v11 (ix1 q))
          (fun q k => v7 (ix2 q k)) (fun q => v15 (ix1 q)) q := by
  unfold k0_pay2 Cert.Spec.hiddenRow
  -- the vector tanh and the three vector sums act entrywise
  refine congrArg Ideal.tanh ?_
  refine congrArg₂ (· + ·) (congrArg₂ (· + ·) (congrArg₂ (· + ·) ?_ ?_) ?_) ?_
  · exact state_prod v0 v4 p q
  · exact input_prod v2 v7 p q
  · exact Cert.TileMask.row_bcast_apply v11 _ _ p q
  · exact Cert.TileMask.row_bcast_apply v15 _ _ p q

end Cert.KernelIdeal.Pay

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«139376_j80229989089777_2_alg».proof.Proof.LibKeepdims
import proofs.«139376_j80229989089777_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.PayPred.lean ====
/-
  The prediction column and the cross-entropy column of one 128-row block, read entry by entry over the
  extended reals.

  * `pay3_apply`: with h the block's hidden state, the prediction at row p is
      ∑ j, logistic ( ∑ k, h(p,k) · W_y(j,k) + b_y(j) ) · y(p,j):
    a matrix product contracting the second axis of both operands into a zero accumulator, a bias vector cast to a
    row and spread down the rows, a pointwise logistic and product, a sum along each row from the zero accumulator,
    and the resulting vector cast to a column.
  * `bce_apply`: the cross-entropy column is, entry by entry,
      0 - ( t · max (log pr) (-100) + (1 - t) · max (log1p (0 - pr)) (-100) ).
-/
import proofs.«139376_j80229989089777_2_alg».proof.Proof.Gen.KernelIdeal.Skeleton
import proofs.«139376_j80229989089777_2_alg».proof.Proof.Spec
import proofs.«139376_j80229989089777_2_alg».proof.Proof.LibMatmulRows
import proofs.«139376_j80229989089777_2_alg».proof.Proof.LibRowReduce
import proofs.«139376_j80229989089777_2_alg».proof.Proof.LibKeepdims
import proofs.«139376_j80229989089777_2_alg».proof.Proof.LibTileMask

noncomputable section

namespace Cert.KernelIdeal.Pay

open Idealize.ShloMosaic Idealize.ShloMosaic.ValueIdx Cert.KernelIdeal Cert.KernelIdeal.Gen

/-! ## The index maps of the product [128, 1024] × [2048, 1024] → [128, 2048]

The left operand is read at (output row, contraction position), the right one at (output column, contraction
position). -/

private theorem lhsY_0 (i : S128x2048.Idx) (q : dot_S128x1024_S2048x1024_S128x2048_1_1_0_0_n_n.contr.Idx) :
    (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide),
    dif_pos (show (0 : Fin S128x1024.rank) ∈ dot_S128x1024_S2048x1024_S128x2048_1_1_0_0_n_n.lhsNonContracting by decide)]
  rfl

private theorem lhsY_1 (i : S128x2048.Idx) (q : dot_S128x1024_S2048x1024_S128x2048_1_1_0_0_n_n.contr.Idx) :
    (dot_S128x1024_S2048x1024_S128x2048_1_1_0_0_n_n.lhsIdx i q 1).val = (q ⟨0, by decide⟩).val :=
  dot_S128x1024_S2048x1024_S128x2048_1_1_0_0_n_n.lhsIdx_val_of_single rfl i q

private theorem rhsY_0 (i : S128x2048.Idx) (q : dot_S128x1024_S2048x1024_S128x2048_1_1_0_0_n_n.contr.Idx) :
    (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide),
    dif_pos (show (0 : Fin S2048x1024.rank) ∈ dot_S128x1024_S2048x1024_S128x2048_1_1_0_0_n_n.rhsNonContracting by decide)]
  rfl

private theorem rhsY_1 (i : S128x2048.Idx) (q : dot_S128x1024_S2048x1024_S128x2048_1_1_0_0_n_n.contr.Idx) :
    (dot_S128x1024_S2048x1024_S128x2048_1_1_0_0_n_n.rhsIdx i q 1).val = (q ⟨0, by decide⟩).val :=
  dot_S128x1024_S2048x1024_S128x2048_1_1_0_0_n_n.rhsIdx_val_of_single rfl i q

/-! ## The prediction column -/

theorem pay3_apply (v0 : Vec Ideal S128x1024 .f32) (v2 : Vec Ideal S128x4096 .f32) (v4 : Vec Ideal S1024x1024 .bf16)
    (v7 : Vec Ideal S1024x4096 .bf16) (v11 : Vec Ideal S1024 .f32) (v15 : Vec Ideal S1024 .f32)
    (v22 : Vec Ideal S2048x1024 .bf16) (v25 : Vec Ideal S2048 .f32) (v30 : Vec Ideal S128x2048 .f32) (p : Fin 128) (u : Fin 1) :
    k0_pay3 (F := Ideal) v0 v2 v4 v7 v11 v15 v22 v25 v30 (ix2 p u)
      = Cert.Spec.predRow (fun k => k0_pay2 (F := Ideal) v0 v2 v4 v7 v11 v15 (ix2 p k)) (fun j k => v22 (ix2 j k))
          (fun j => v25 (ix1 j)) (fun j => v30 (ix2 p j)) := by
  unfold k0_pay3 Cert.Spec.predRow
  -- the column's entry (p, u) is the vector's entry p, which is the sum of row p
  refine (Cert.Keepdims.shapeCast_a_a1_apply _ _ p u).trans ?_
  refine (Cert.RowReduce.rowSum_apply _ _ _ _ _ p).trans ?_
  refine Finset.sum_congr rfl fun j _ => ?_
  -- the summand is pointwise: logistic of (product entry + bias entry), times y(p, j)
  refine (mulf_apply _ _ _).trans ?_
  refine congrArg (fun x => x * v30 (ix2 p j)) ?_
  refine congrArg Ideal.logistic ?_
  refine (addf_apply _ _ _).trans ?_
  refine congrArg₂ (fun x y => x + y) ?_ ?_
  · -- the product entry (p, j): row p of the hidden state times row j of the weights
    refine (Cert.MatmulRows.matmul_rows_rows dot_S128x1024_S2048x1024_S128x2048_1_1_0_0_n_n rfl rfl
      lhsY_0 lhsY_1 rhsY_0 rhsY_1 none _ _ p j).trans ?_
    refine Finset.sum_congr rfl fun k _ => ?_
    rw [shapeCast_self]
    rfl
  · -- the bias vector cast to a row and spread down the rows
    exact Cert.TileMask.row_bcast_apply v25 _ _ p j

/-! ## The cross-entropy column -/

theorem bce_apply (v33 : FVec Ideal S128x1 .f32) (v42 : Vec Ideal S128x1 .f32) (i : S128x1.Idx) :
    k0_pay1 (F := Ideal) v33 (log v33) (k0_pay5 (F := Ideal)) v42 i = Cert.Spec.bce (v33 i) (v42 i) := by
  unfold k0_pay1 k0_pay5 Cert.Spec.bce Cert.Spec.loss
  rw [shapeCast_self]
  -- every operation is pointwise; the constants are the printed words
  show Ideal.ofBits .f32 0x00000000#32
      - (v42 i * max (Ideal.log (v33 i)) (Ideal.ofBits .f32 0xC2C80000#32)
        + (Ideal.ofBits .f32 0x3F800000#32 - v42 i)
          * max (Ideal.log1p (Ideal.ofBits .f32 0x00000000#32 - v33 i)) (Ideal.ofBits .f32 0xC2C80000#32)) = _
  rw [Ideal.ofBits_zero_f32]

end Cert.KernelIdeal.Pay

end
-- ==== Proof.Blocks.lean ====
/-
  From blocks to arrays.  The region runs over 32 points; point t stages rows 128·t … 128·t + 127 of the state, the
  input, the question vectors and the label column, and the six weight and bias arrays whole, and writes back rows
  128·t … 128·t + 127 of the hidden state [4096, 1024], of the prediction column [4096, 1] and of the cross-entropy
  column [4096, 1].  Every entry of a result depends on ONE row of the activations, and each staged block is the same
  rows of its array, so what point t writes back is block t of one function of the whole arrays (the hidden state, the
  predictions, the cross entropies of the specification); the 32 blocks cover each result array (row i lies in the block
  of point i / 128), so each array ends at that function: `final10`, `final11`, `final12`.
-/
import proofs.«139376_j80229989089777_2_alg».proof.Proof.Gen.KernelIdeal.Frame
import proofs.«139376_j80229989089777_2_alg».proof.Proof.PayHidden
import proofs.«139376_j80229989089777_2_alg».proof.Proof.PayPred
import Idealize.ShloMosaic.Lib.Pipeline.Value

noncomputable section

namespace Cert.KernelIdeal.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The zero offsets of a rank-2 and of a rank-1 whole-block access. -/
theorem zeros2 : (![0, 0] : Fin 2 → Nat) = fun _ => 0 := funext fun a => by fin_cases a <;> rfl
theorem zeros1 : (![0] : Fin 1 → Nat) = fun _ => 0 := funext fun a => by fin_cases a <;> rfl

/-- The index maps over the 32 points: the state, the input, the question vectors, the labels and the three results are at block (t, 0) at point t. -/
theorem rowIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The six weight and bias arrays are one block each, at block index 0 at every point. -/
theorem wholeIdx : ∀ t : Fin cfg0.N,
    win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0 :=
  (by decide +kernel : ∀ t : Fin grid0.N, _)

/-! ## The blocks the region stages, as rows of their arrays -/

/-- Row p of the state block at point t is row 128·t + p of the state. -/
theorem stateBlk (c : Dev nD) (t : Fin cfg0.N) (p : Fin 128) (k : Fin 1024) (r : Fin 4096) (hr : r.val = t.val * 128 + p.val) :
    (iblk m c 0 t : Vec Ideal S128x1024 .f32) (ix2 p k) = (V m c main_arg0 : Cert.Spec.A2 4096 1024) (ix2 r k) := by
  show V m c main_arg0 (((cfg0.win 0).blk t).view.emb (ix2 p k)) = V m c main_arg0 (ix2 r k)
  refine congrArg (V m c main_arg0) ?_
  funext a; apply Fin.ext
  obtain ⟨e0, e1, -⟩ := rowIdx t
  match a with
  | ⟨0, _⟩ => show win0_0.index t (0 : Fin 2) * 128 + 1 * p.val = r.val; omega
  | ⟨1, _⟩ => show win0_0.index t (1 : Fin 2) * 1024 + 1 * k.val = k.val; omega

/-- Row p of the input block at point t is row 128·t + p of the input. -/
theorem inputBlk (c : Dev nD) (t : Fin cfg0.N) (p : Fin 128) (k : Fin 4096) (r : Fin 4096) (hr : r.val = t.val * 128 + p.val) :
    (iblk m c 1 t : Vec Ideal S128x4096 .f32) (ix2 p k) = (V m c main_arg1 : Cert.Spec.A2 4096 4096) (ix2 r k) := by
  show V m c main_arg1 (((cfg0.win 1).blk t).view.emb (ix2 p k)) = V m c main_arg1 (ix2 r k)
  refine congrArg (V m c main_arg1) ?_
  funext a; apply Fin.ext
  obtain ⟨-, -, e0, e1, -⟩ := rowIdx t
  match a with
  | ⟨0, _⟩ => show win0_1.index t (0 : Fin 2) * 128 + 1 * p.val = r.val; omega
  | ⟨1, _⟩ => show win0_1.index t (1 : Fin 2) * 4096 + 1 * k.val = k.val; omega

/-- The state weights are staged whole: their block at any point is the array. -/
theorem wtBlk (c : Dev nD) (t : Fin cfg0.N) (q : Fin 1024) (k : Fin 1024) :
    (iblk m c 2 t : Vec Ideal S1024x1024 .bf16) (ix2 q k) = (V m c main_v0 : Cert.Spec.A2 1024 1024) (ix2 q k) := by
  show V m c main_v0 (((cfg0.win 2).blk t).view.emb (ix2 q k)) = V m c main_v0 (ix2 q k)
  refine congrArg (V m c main_v0) ?_
  funext a; apply Fin.ext
  obtain ⟨e0, e1, -⟩ := wholeIdx t
  match a with
  | ⟨0, _⟩ => show win0_2.index t (0 : Fin 2) * 1024 + 1 * q.val = q.val; omega
  | ⟨1, _⟩ => show win0_2.index t (1 : Fin 2) * 1024 + 1 * k.val = k.val; omega

/-- The state bias is staged whole. -/
theorem btBlk (c : Dev nD) (t : Fin cfg0.N) (q : Fin 1024) :
    (iblk m c 3 t : Vec Ideal S1024 .f32) (ix1 q) = (V m c main_arg5 : Cert.Spec.A1 1024) (ix1 q) := by
  show V m c main_arg5 (((cfg0.win 3).blk t).view.emb (ix1 q)) = V m c main_arg5 (ix1 q)
  refine congrArg (V m c main_arg5) ?_
  funext a; apply Fin.ext
  obtain ⟨-, -, e0, -⟩ := wholeIdx t
  match a with
  | ⟨0, _⟩ => show win0_3.index t (0 : Fin 1) * 1024 + 1 * q.val = q.val; omega

/-- The input weights are staged whole. -/
theorem wxBlk (c : Dev nD) (t : Fin cfg0.N) (q : Fin 1024) (k : Fin 4096) :
    (iblk m c 4 t : Vec Ideal S1024x4096 .bf16) (ix2 q k) = (V m c main_v1 : Cert.Spec.A2 1024 4096) (ix2 q k) := by
  show V m c main_v1 (((cfg0.win 4).blk t).view.emb (ix2 q k)) = V m c main_v1 (ix2 q k)
  refine congrArg (V m c main_v1) ?_
  funext a; apply Fin.ext
  obtain ⟨-, -, -, e0, e1, -⟩ := wholeIdx t
  match a with
  | ⟨0, _⟩ => show win0_4.index t (0 : Fin 2) * 1024 + 1 * q.val = q.val; omega
  | ⟨1, _⟩ => show win0_4.index t (1 : Fin 2) * 4096 + 1 * k.val = k.val; omega

/-- The input bias is staged whole. -/
theorem bxBlk (c : Dev nD) (t : Fin cfg0.N) (q : Fin 1024) :
    (iblk m c 5 t : Vec Ideal S1024 .f32) (ix1 q) = (V m c main_arg7 : Cert.Spec.A1 1024) (ix1 q) := by
  show V m c main_arg7 (((cfg0.win 5).blk t).view.emb (ix1 q)) = V m c main_arg7 (ix1 q)
  refine congrArg (V m c main_arg7) ?_
  funext a; apply Fin.ext
  obtain ⟨-, -, -, -, -, e0, -⟩ := wholeIdx t
  match a with
  | ⟨0, _⟩ => show win0_5.index t (0 : Fin 1) * 1024 + 1 * q.val = q.val; omega

/-- The output weights are staged whole. -/
theorem wyBlk (c : Dev nD) (t : Fin cfg0.N) (j : Fin 2048) (k : Fin 1024) :
    (iblk m c 6 t : Vec Ideal S2048x1024 .bf16) (ix2 j k) = (V m c main_v2 : Cert.Spec.A2 2048 1024) (ix2 j k) := by
  show V m c main_v2 (((cfg0.win 6).blk t).view.emb (ix2 j k)) = V m c main_v2 (ix2 j k)
  refine congrArg (V m c main_v2) ?_
  funext a; apply Fin.ext
  obtain ⟨-, -, -, -, -, -, e0, e1, -⟩ := wholeIdx t
  match a with
  | ⟨0, _⟩ => show win0_6.index t (0 : Fin 2) * 2048 + 1 * j.val = j.val; omega
  | ⟨1, _⟩ => show win0_6.index t (1 : Fin 2) * 1024 + 1 * k.val = k.val; omega

/-- The output bias is staged whole. -/
theorem byBlk (c : Dev nD) (t : Fin cfg0.N) (j : Fin 2048) :
    (iblk m c 7 t : Vec Ideal S2048 .f32) (ix1 j) = (V m c main_arg9 : Cert.Spec.A1 2048) (ix1 j) := by
  show V m c main_arg9 (((cfg0.win 7).blk t).view.emb (ix1 j)) = V m c main_arg9 (ix1 j)
  refine congrArg (V m c main_arg9) ?_
  funext a; apply Fin.ext
  obtain ⟨-, -, -, -, -, -, -, -, e0⟩ := wholeIdx t
  match a with
  | ⟨0, _⟩ => show win0_7.index t (0 : Fin 1) * 2048 + 1 * j.val = j.val; omega

/-- Row p of the question-vector block at point t is row 128·t + p of the question vectors. -/
theorem questionBlk (c : Dev nD) (t : Fin cfg0.N) (p : Fin 128) (j : Fin 2048) (r : Fin 4096) (hr : r.val = t.val * 128 + p.val) :
    (iblk m c 8 t : Vec Ideal S128x2048 .f32) (ix2 p j) = (V m c main_arg2 : Cert.Spec.A2 4096 2048) (ix2 r j) := by
  show V m c main_arg2 (((cfg0.win 8).blk t).view.emb (ix2 p j)) = V m c main_arg2 (ix2 r j)
  refine congrArg (V m c main_arg2) ?_
  funext a; apply Fin.ext
  obtain ⟨-, -, -, -, e0, e1, -⟩ := rowIdx t
  match a with
  | ⟨0, _⟩ => show win0_8.index t (0 : Fin 2) * 128 + 1 * p.val = r.val; omega
  | ⟨1, _⟩ => show win0_8.index t (1 : Fin 2) * 2048 + 1 * j.val = j.val; omega

/-- Row p of the label block at point t is row 128·t + p of the label column. -/
theorem labelBlk (c : Dev nD) (t : Fin cfg0.N) (p : Fin 128) (u : Fin 1) (r : Fin 4096) (hr : r.val = t.val * 128 + p.val) :
    (iblk m c 9 t : Vec Ideal S128x1 .f32) (ix2 p u) = (V m c main_v3 : Cert.Spec.A2 4096 1) (ix2 r u) := by
  show V m c main_v3 (((cfg0.win 9).blk t).view.emb (ix2 p u)) = V m c main_v3 (ix2 r u)
  refine congrArg (V m c main_v3) ?_
  funext a; apply Fin.ext
  obtain ⟨-, -, -, -, -, -, e0, e1, -⟩ := rowIdx t
  match a with
  | ⟨0, _⟩ => show win0_9.index t (0 : Fin 2) * 128 + 1 * p.val = r.val; omega
  | ⟨1, _⟩ => show win0_9.index t (1 : Fin 2) * 1 + 1 * u.val = u.val; omega

/-! ## One row of each result, from blocks that are rows of the arrays -/

section Rows

variable (x0 : Vec Ideal S128x1024 .f32) (x1 : Vec Ideal S128x4096 .f32) (x2 : Vec Ideal S1024x1024 .bf16)
  (x3 : Vec Ideal S1024 .f32) (x4 : Vec Ideal S1024x4096 .bf16) (x5 : Vec Ideal S1024 .f32)
  (x6 : Vec Ideal S2048x1024 .bf16) (x7 : Vec Ideal S2048 .f32) (x8 : Vec Ideal S128x2048 .f32) (x9 : Vec Ideal S128x1 .f32)
  (st : Cert.Spec.A2 4096 1024) (X : Cert.Spec.A2 4096 4096) (Wt : Cert.Spec.A2 1024 1024) (bt : Cert.Spec.A1 1024)
  (Wx : Cert.Spec.A2 1024 4096) (bx : Cert.Spec.A1 1024) (Wy : Cert.Spec.A2 2048 1024) (bq : Cert.Spec.A1 2048)
  (Y : Cert.Spec.A2 4096 2048) (tc : Cert.Spec.A2 4096 1)
  (p : Fin 128) (r : Fin 4096)

/-- Row p of the block result is row r of the hidden state when row p of the state and input blocks are rows r of
    their arrays and the weight and bias blocks are their arrays. -/
theorem hidden_row
    (h0 : ∀ k, x0 (ix2 p k) = st (ix2 r k)) (h1 : ∀ k, x1 (ix2 p k) = X (ix2 r k))
    (h2 : ∀ q k, x2 (ix2 q k) = Wt (ix2 q k)) (h3 : ∀ q, x3 (ix1 q) = bt (ix1 q))
    (h4 : ∀ q k, x4 (ix2 q k) = Wx (ix2 q k)) (h5 : ∀ q, x5 (ix1 q) = bx (ix1 q)) (q : Fin 1024) :
    k0_pay2 (F := Ideal) x0 x1 x2 x4 x3 x5 (ix2 p q) = Cert.Spec.hiddenAt st X Wt bt Wx bx r q := by
  refine (Pay.pay2_apply x0 x1 x2 x4 x3 x5 p q).trans ?_
  unfold Cert.Spec.hiddenAt
  simp only [h0, h1, h2, h3, h4, h5]

/-- The same for the prediction of the row, the question-vector block's row p being row r of its array. -/
theorem pred_row
    (h0 : ∀ k, x0 (ix2 p k) = st (ix2 r k)) (h1 : ∀ k, x1 (ix2 p k) = X (ix2 r k))
    (h2 : ∀ q k, x2 (ix2 q k) = Wt (ix2 q k)) (h3 : ∀ q, x3 (ix1 q) = bt (ix1 q))
    (h4 : ∀ q k, x4 (ix2 q k) = Wx (ix2 q k)) (h5 : ∀ q, x5 (ix1 q) = bx (ix1 q))
    (h6 : ∀ j k, x6 (ix2 j k) = Wy (ix2 j k)) (h7 : ∀ j, x7 (ix1 j) = bq (ix1 j))
    (h8 : ∀ j, x8 (ix2 p j) = Y (ix2 r j)) (u : Fin 1) :
    k0_pay3 (F := Ideal) x0 x1 x2 x4 x3 x5 x6 x7 x8 (ix2 p u) = Cert.Spec.predAt st X Wt bt Wx bx Wy bq Y r := by
  refine (Pay.pay3_apply x0 x1 x2 x4 x3 x5 x6 x7 x8 p u).trans ?_
  unfold Cert.Spec.predAt
  have hh : (fun k => k0_pay2 (F := Ideal) x0 x1 x2 x4 x3 x5 (ix2 p k)) = fun k => Cert.Spec.hiddenAt st X Wt bt Wx bx r k :=
    funext fun k => hidden_row x0 x1 x2 x3 x4 x5 st X Wt bt Wx bx p r h0 h1 h2 h3 h4 h5 k
  rw [hh]
  simp only [h6, h7, h8]

/-- The same for the cross entropy of the row, the label block's row p being row r of the label column. -/
theorem bce_row
    (h0 : ∀ k, x0 (ix2 p k) = st (ix2 r k)) (h1 : ∀ k, x1 (ix2 p k) = X (ix2 r k))
    (h2 : ∀ q k, x2 (ix2 q k) = Wt (ix2 q k)) (h3 : ∀ q, x3 (ix1 q) = bt (ix1 q))
    (h4 : ∀ q k, x4 (ix2 q k) = Wx (ix2 q k)) (h5 : ∀ q, x5 (ix1 q) = bx (ix1 q))
    (h6 : ∀ j k, x6 (ix2 j k) = Wy (ix2 j k)) (h7 : ∀ j, x7 (ix1 j) = bq (ix1 j))
    (h8 : ∀ j, x8 (ix2 p j) = Y (ix2 r j)) (h9 : ∀ u, x9 (ix2 p u) = tc (ix2 r u)) (u : Fin 1) :
    k0_pay1 (F := Ideal) (k0_pay3 (F := Ideal) x0 x1 x2 x4 x3 x5 x6 x7 x8) (k0_pay4 (F := Ideal) x0 x1 x2 x4 x3 x5 x6 x7 x8)
        (k0_pay5 (F := Ideal)) x9 (ix2 p u)
      = Cert.Spec.bce (Cert.Spec.predAt st X Wt bt Wx bx Wy bq Y r) (tc (ix2 r u)) := by
  have e4 : k0_pay4 (F := Ideal) x0 x1 x2 x4 x3 x5 x6 x7 x8 = log (k0_pay3 (F := Ideal) x0 x1 x2 x4 x3 x5 x6 x7 x8) := rfl
  rw [e4]
  refine (Pay.bce_apply (k0_pay3 (F := Ideal) x0 x1 x2 x4 x3 x5 x6 x7 x8) x9 (ix2 p u)).trans ?_
  rw [pred_row x0 x1 x2 x3 x4 x5 x6 x7 x8 st X Wt bt Wx bx Wy bq Y p r h0 h1 h2 h3 h4 h5 h6 h7 h8 u, h9 u]

end Rows

/-- Entry (p, q) of the hidden-state block at point t sits at (128·t + p, q) in the array. -/
theorem hiddenPos (t : Fin cfg0.N) (p : Fin 128) (q : Fin 1024) (r : Fin 4096) (hr : r.val = t.val * 128 + p.val) :
    (((cfg0.win 10).blk t).view.emb (ix2 p q) : S4096x1024.Idx) = ix2 r q := by
  funext a; apply Fin.ext
  obtain ⟨-, -, -, -, -, -, -, -, e0, e1, -⟩ := rowIdx t
  match a with
  | ⟨0, _⟩ => show win0_10.index t (0 : Fin 2) * 128 + 1 * p.val = r.val; omega
  | ⟨1, _⟩ => show win0_10.index t (1 : Fin 2) * 1024 + 1 * q.val = q.val; omega

/-- What point t writes back to the hidden-state array is block t of the hidden state of the arrays. -/
theorem hidden_written (c : Dev nD) (t : Fin cfg0.N) :
    (dats (F := Ideal) m 0 c).flushed 10 t = ((cfg0.win 10).blk t).view.read (Elt Ideal)
      (Cert.Spec.hiddenArr (V m c main_arg0) (V m c main_arg1) (V m c main_v0) (V m c main_arg5) (V m c main_v1) (V m c main_arg7)) := by
  show (cfg0.win 10).cut (grid0.coords t) ((dats m 0 c).after 10 t) = _
  rw [after0_10]
  unfold out0_10
  rw [View.canon_unit_zero zeros2]
  simp only [View.ld_unit_zero (S := S128x1024) zeros2, View.ld_unit_zero (S := S128x4096) zeros2,
    View.ld_unit_zero (S := S1024x1024) zeros2, View.ld_unit_zero (S := S1024x4096) zeros2,
    View.ld_unit_zero (S := S1024) zeros1]
  funext j
  obtain ⟨p, q, rfl⟩ : ∃ (p : Fin 128) (q : Fin 1024), j = ix2 p q := ⟨j 0, j 1, eq_ix2 j⟩
  have hN : cfg0.N = 32 := N_0
  have ht : t.val < 32 := by have := t.isLt; omega
  have hp : p.val < 128 := p.isLt
  let r : Fin 4096 := ⟨t.val * 128 + p.val, by omega⟩
  have hr : r.val = t.val * 128 + p.val := rfl
  show k0_pay2 (F := Ideal) (iblk m c 0 t) (iblk m c 1 t) (iblk m c 2 t) (iblk m c 4 t) (iblk m c 3 t) (iblk m c 5 t) (ix2 p q)
    = Cert.Spec.hiddenArr (V m c main_arg0) (V m c main_arg1) (V m c main_v0) (V m c main_arg5) (V m c main_v1) (V m c main_arg7)
        (((cfg0.win 10).blk t).view.emb (ix2 p q))
  refine (hidden_row (iblk m c 0 t) (iblk m c 1 t) (iblk m c 2 t) (iblk m c 3 t) (iblk m c 4 t) (iblk m c 5 t)
    (V m c main_arg0) (V m c main_arg1) (V m c main_v0) (V m c main_arg5) (V m c main_v1) (V m c main_arg7) p r
    (fun k => stateBlk m c t p k r hr) (fun k => inputBlk m c t p k r hr) (fun q k => wtBlk m c t q k) (fun q => btBlk m c t q)
    (fun q k => wxBlk m c t q k) (fun q => bxBlk m c t q) q).trans ?_
  exact (congrArg (Cert.Spec.hiddenArr (V m c main_arg0) (V m c main_arg1) (V m c main_v0) (V m c main_arg5) (V m c main_v1) (V m c main_arg7))
    (hiddenPos t p q r hr)).symm

/-- Entry (p, 0) of the prediction block at point t sits at (128·t + p, 0) in the column. -/
theorem predPos (t : Fin cfg0.N) (p : Fin 128) (u : Fin 1) (r : Fin 4096) (hr : r.val = t.val * 128 + p.val) :
    (((cfg0.win 11).blk t).view.emb (ix2 p u) : S4096x1.Idx) = ix2 r u := by
  funext a; apply Fin.ext
  obtain ⟨-, -, -, -, -, -, -, -, -, -, e0, e1, -⟩ := rowIdx t
  match a with
  | ⟨0, _⟩ => show win0_11.index t (0 : Fin 2) * 128 + 1 * p.val = r.val; omega
  | ⟨1, _⟩ => show win0_11.index t (1 : Fin 2) * 1 + 1 * u.val = u.val; omega

/-- Entry (p, 0) of the cross-entropy block at point t sits at (128·t + p, 0) in the column. -/
theorem bcePos (t : Fin cfg0.N) (p : Fin 128) (u : Fin 1) (r : Fin 4096) (hr : r.val = t.val * 128 + p.val) :
    (((cfg0.win 12).blk t).view.emb (ix2 p u) : S4096x1.Idx) = ix2 r u := by
  funext a; apply Fin.ext
  obtain ⟨-, -, -, -, -, -, -, -, -, -, -, -, e0, e1⟩ := rowIdx t
  match a with
  | ⟨0, _⟩ => show win0_12.index t (0 : Fin 2) * 128 + 1 * p.val = r.val; omega
  | ⟨1, _⟩ => show win0_12.index t (1 : Fin 2) * 1 + 1 * u.val = u.val; omega

/-- What point t writes back to the prediction column is block t of the predictions of the arrays. -/
theorem pred_written (c : Dev nD) (t : Fin cfg0.N) :
    (dats (F := Ideal) m 0 c).flushed 11 t = ((cfg0.win 11).blk t).view.read (Elt Ideal)
      (Cert.Spec.predCol (V m c main_arg0) (V m c main_arg1) (V m c main_v0) (V m c main_arg5) (V m c main_v1) (V m c main_arg7)
        (V m c main_v2) (V m c main_arg9) (V m c main_arg2)) := by
  show (cfg0.win 11).cut (grid0.coords t) ((dats m 0 c).after 11 t) = _
  rw [after0_11]
  unfold out0_11
  rw [View.canon_unit_zero zeros2]
  simp only [View.ld_unit_zero (S := S128x1024) zeros2, View.ld_unit_zero (S := S128x4096) zeros2,
    View.ld_unit_zero (S := S1024x1024) zeros2, View.ld_unit_zero (S := S1024x4096) zeros2,
    View.ld_unit_zero (S := S1024) zeros1, View.ld_unit_zero (S := S2048x1024) zeros2,
    View.ld_unit_zero (S := S2048) zeros1, View.ld_unit_zero (S := S128x2048) zeros2]
  funext j
  obtain ⟨p, u, rfl⟩ : ∃ (p : Fin 128) (u : Fin 1), j = ix2 p u := ⟨j 0, j 1, eq_ix2 j⟩
  have hN : cfg0.N = 32 := N_0
  have ht : t.val < 32 := by have := t.isLt; omega
  have hp : p.val < 128 := p.isLt
  let r : Fin 4096 := ⟨t.val * 128 + p.val, by omega⟩
  have hr : r.val = t.val * 128 + p.val := rfl
  show k0_pay3 (F := Ideal) (iblk m c 0 t) (iblk m c 1 t) (iblk m c 2 t) (iblk m c 4 t) (iblk m c 3 t) (iblk m c 5 t)
      (iblk m c 6 t) (iblk m c 7 t) (iblk m c 8 t) (ix2 p u)
    = Cert.Spec.predCol (V m c main_arg0) (V m c main_arg1) (V m c main_v0) (V m c main_arg5) (V m c main_v1) (V m c main_arg7)
        (V m c main_v2) (V m c main_arg9) (V m c main_arg2) (((cfg0.win 11).blk t).view.emb (ix2 p u))
  refine (pred_row (iblk m c 0 t) (iblk m c 1 t) (iblk m c 2 t) (iblk m c 3 t) (iblk m c 4 t) (iblk m c 5 t)
    (iblk m c 6 t) (iblk m c 7 t) (iblk m c 8 t)
    (V m c main_arg0) (V m c main_arg1) (V m c main_v0) (V m c main_arg5) (V m c main_v1) (V m c main_arg7)
    (V m c main_v2) (V m c main_arg9) (V m c main_arg2) p r
    (fun k => stateBlk m c t p k r hr) (fun k => inputBlk m c t p k r hr) (fun q k => wtBlk m c t q k) (fun q => btBlk m c t q)
    (fun q k => wxBlk m c t q k) (fun q => bxBlk m c t q) (fun j k => wyBlk m c t j k) (fun j => byBlk m c t j)
    (fun j => questionBlk m c t p j r hr) u).trans ?_
  exact (congrArg (Cert.Spec.predCol (V m c main_arg0) (V m c main_arg1) (V m c main_v0) (V m c main_arg5) (V m c main_v1) (V m c main_arg7)
    (V m c main_v2) (V m c main_arg9) (V m c main_arg2)) (predPos t p u r hr)).symm

/-- What point t writes back to the cross-entropy column is block t of the cross entropies of the arrays. -/
theorem bce_written (c : Dev nD) (t : Fin cfg0.N) :
    (dats (F := Ideal) m 0 c).flushed 12 t = ((cfg0.win 12).blk t).view.read (Elt Ideal)
      (Cert.Spec.bceCol (V m c main_arg0) (V m c main_arg1) (V m c main_v0) (V m c main_arg5) (V m c main_v1) (V m c main_arg7)
        (V m c main_v2) (V m c main_arg9) (V m c main_arg2) (V m c main_v3)) := by
  show (cfg0.win 12).cut (grid0.coords t) ((dats m 0 c).after 12 t) = _
  rw [after0_12]
  unfold out0_12
  rw [View.canon_unit_zero zeros2]
  simp only [View.ld_unit_zero (S := S128x1024) zeros2, View.ld_unit_zero (S := S128x4096) zeros2,
    View.ld_unit_zero (S := S1024x1024) zeros2, View.ld_unit_zero (S := S1024x4096) zeros2,
    View.ld_unit_zero (S := S1024) zeros1, View.ld_unit_zero (S := S2048x1024) zeros2,
    View.ld_unit_zero (S := S2048) zeros1, View.ld_unit_zero (S := S128x2048) zeros2,
    View.ld_unit_zero (S := S128x1) zeros2]
  funext j
  obtain ⟨p, u, rfl⟩ : ∃ (p : Fin 128) (u : Fin 1), j = ix2 p u := ⟨j 0, j 1, eq_ix2 j⟩
  have hN : cfg0.N = 32 := N_0
  have ht : t.val < 32 := by have := t.isLt; omega
  have hp : p.val < 128 := p.isLt
  let r : Fin 4096 := ⟨t.val * 128 + p.val, by omega⟩
  have hr : r.val = t.val * 128 + p.val := rfl
  show k0_pay1 (F := Ideal)
      (k0_pay3 (F := Ideal) (iblk m c 0 t) (iblk m c 1 t) (iblk m c 2 t) (iblk m c 4 t) (iblk m c 3 t) (iblk m c 5 t)
        (iblk m c 6 t) (iblk m c 7 t) (iblk m c 8 t))
      (k0_pay4 (F := Ideal) (iblk m c 0 t) (iblk m c 1 t) (iblk m c 2 t) (iblk m c 4 t) (iblk m c 3 t) (iblk m c 5 t)
        (iblk m c 6 t) (iblk m c 7 t) (iblk m c 8 t))
      (k0_pay5 (F := Ideal)) (iblk m c 9 t) (ix2 p u)
    = Cert.Spec.bceCol (V m c main_arg0) (V m c main_arg1) (V m c main_v0) (V m c main_arg5) (V m c main_v1) (V m c main_arg7)
        (V m c main_v2) (V m c main_arg9) (V m c main_arg2) (V m c main_v3) (((cfg0.win 12).blk t).view.emb (ix2 p u))
  refine (bce_row (iblk m c 0 t) (iblk m c 1 t) (iblk m c 2 t) (iblk m c 3 t) (iblk m c 4 t) (iblk m c 5 t)
    (iblk m c 6 t) (iblk m c 7 t) (iblk m c 8 t) (iblk m c 9 t)
    (V m c main_arg0) (V m c main_arg1) (V m c main_v0) (V m c main_arg5) (V m c main_v1) (V m c main_arg7)
    (V m c main_v2) (V m c main_arg9) (V m c main_arg2) (V m c main_v3) p r
    (fun k => stateBlk m c t p k r hr) (fun k => inputBlk m c t p k r hr) (fun q k => wtBlk m c t q k) (fun q => btBlk m c t q)
    (fun q k => wxBlk m c t q k) (fun q => bxBlk m c t q) (fun j k => wyBlk m c t j k) (fun j => byBlk m c t j)
    (fun j => questionBlk m c t p j r hr) (fun u => labelBlk m c t p u r hr) u).trans ?_
  exact (congrArg (Cert.Spec.bceCol (V m c main_arg0) (V m c main_arg1) (V m c main_v0) (V m c main_arg5) (V m c main_v1) (V m c main_arg7)
    (V m c main_v2) (V m c main_arg9) (V m c main_arg2) (V m c main_v3)) (bcePos t p u r hr)).symm

/-! ## The 32 blocks cover each array -/

/-- An index of the array is in point t's block iff each coordinate is in the block's range on its axis. -/
theorem mem_hiddenBlk (t : Fin cfg0.N) (i : S4096x1024.Idx) :
    i ∈ ((cfg0.win 10).blk t).view.set ↔ ∀ a : Fin 2, win0_10.index t a * S128x1024.size a ≤ (i a).val ∧ (i a).val < win0_10.index t a * S128x1024.size a + S128x1024.size a := by
  show i ∈ ((View.whole main_v4_0).slice (win0_10.rect t)).set ↔ _
  rw [View.set_slice_whole, Rect.mem_set_unit]
  exact Iff.rfl

/-- The same for the prediction column. -/
theorem mem_predBlk (t : Fin cfg0.N) (i : S4096x1.Idx) :
    i ∈ ((cfg0.win 11).blk t).view.set ↔ ∀ a : Fin 2, win0_11.index t a * S128x1.size a ≤ (i a).val ∧ (i a).val < win0_11.index t a * S128x1.size a + S128x1.size a := by
  show i ∈ ((View.whole main_v4_1).slice (win0_11.rect t)).set ↔ _
  rw [View.set_slice_whole, Rect.mem_set_unit]
  exact Iff.rfl

/-- The same for the cross-entropy column. -/
theorem mem_bceBlk (t : Fin cfg0.N) (i : S4096x1.Idx) :
    i ∈ ((cfg0.win 12).blk t).view.set ↔ ∀ a : Fin 2, win0_12.index t a * S128x1.size a ≤ (i a).val ∧ (i a).val < win0_12.index t a * S128x1.size a + S128x1.size a := by
  show i ∈ ((View.whole main_v4_2).slice (win0_12.rect t)).set ↔ _
  rw [View.set_slice_whole, Rect.mem_set_unit]
  exact Iff.rfl

/-- Row i₀ of the hidden-state array is in the block of point i₀ / 128. -/
theorem hidden_cover (i : S4096x1024.Idx) : ∃ t : Fin cfg0.N, (cfg0.win 10).flush t = true ∧ i ∈ ((cfg0.win 10).blk t).view.set := by
  have hN : cfg0.N = 32 := N_0
  have hi0 : (i 0).val < 4096 := (i 0).isLt
  have hi1 : (i 1).val < 1024 := (i 1).isLt
  let t : Fin cfg0.N := ⟨(i 0).val / 128, by omega⟩
  have htv : t.val = (i 0).val / 128 := rfl
  refine ⟨t, flush0_10 t, ?_⟩
  rw [mem_hiddenBlk]
  obtain ⟨-, -, -, -, -, -, -, -, e0, e1, -⟩ := rowIdx t
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 1024 ≤ (i 1).val ∧ (i 1).val < win0_10.index t (1 : Fin 2) * 1024 + 1024; omega

/-- Row i₀ of the prediction column is in the block of point i₀ / 128. -/
theorem pred_cover (i : S4096x1.Idx) : ∃ t : Fin cfg0.N, (cfg0.win 11).flush t = true ∧ i ∈ ((cfg0.win 11).blk t).view.set := by
  have hN : cfg0.N = 32 := N_0
  have hi0 : (i 0).val < 4096 := (i 0).isLt
  have hi1 : (i 1).val < 1 := (i 1).isLt
  let t : Fin cfg0.N := ⟨(i 0).val / 128, by omega⟩
  have htv : t.val = (i 0).val / 128 := rfl
  refine ⟨t, flush0_11 t, ?_⟩
  rw [mem_predBlk]
  obtain ⟨-, -, -, -, -, -, -, -, -, -, e0, e1, -⟩ := rowIdx t
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 1 ≤ (i 1).val ∧ (i 1).val < win0_11.index t (1 : Fin 2) * 1 + 1; omega

/-- Row i₀ of the cross-entropy column is in the block of point i₀ / 128. -/
theorem bce_cover (i : S4096x1.Idx) : ∃ t : Fin cfg0.N, (cfg0.win 12).flush t = true ∧ i ∈ ((cfg0.win 12).blk t).view.set := by
  have hN : cfg0.N = 32 := N_0
  have hi0 : (i 0).val < 4096 := (i 0).isLt
  have hi1 : (i 1).val < 1 := (i 1).isLt
  let t : Fin cfg0.N := ⟨(i 0).val / 128, by omega⟩
  have htv : t.val = (i 0).val / 128 := rfl
  refine ⟨t, flush0_12 t, ?_⟩
  rw [mem_bceBlk]
  obtain ⟨-, -, -, -, -, -, -, -, -, -, -, -, e0, e1⟩ := rowIdx t
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 1 ≤ (i 1).val ∧ (i 1).val < win0_12.index t (1 : Fin 2) * 1 + 1; omega

/-! ## The arrays after the run -/

/-- The hidden-state array ends at the hidden state of the arrays the region finds. -/
theorem final10 (c : Dev nD) : (dats (F := Ideal) m 0 c).arrAt 10 cfg0.N
    = Cert.Spec.hiddenArr (V m c main_arg0) (V m c main_arg1) (V m c main_v0) (V m c main_arg5) (V m c main_v1) (V m c main_arg7) :=
  (dats (F := Ideal) m 0 c).arrAt_eq_of_cover 10 _ (fun t _ => hidden_written m c t) hidden_cover

/-- The prediction column ends at the predictions of the arrays the region finds. -/
theorem final11 (c : Dev nD) : (dats (F := Ideal) m 0 c).arrAt 11 cfg0.N
    = Cert.Spec.predCol (V m c main_arg0) (V m c main_arg1) (V m c main_v0) (V m c main_arg5) (V m c main_v1) (V m c main_arg7)
        (V m c main_v2) (V m c main_arg9) (V m c main_arg2) :=
  (dats (F := Ideal) m 0 c).arrAt_eq_of_cover 11 _ (fun t _ => pred_written m c t) pred_cover

/-- The cross-entropy column ends at the cross entropies of the arrays the region finds. -/
theorem final12 (c : Dev nD) : (dats (F := Ideal) m 0 c).arrAt 12 cfg0.N
    = Cert.Spec.bceCol (V m c main_arg0) (V m c main_arg1) (V m c main_v0) (V m c main_arg5) (V m c main_v1) (V m c main_arg7)
        (V m c main_v2) (V m c main_arg9) (V m c main_arg2) (V m c main_v3) :=
  (dats (F := Ideal) m 0 c).arrAt_eq_of_cover 12 _ (fun t _ => bce_written m c t) bce_cover

end Cert.KernelIdeal.Blocks

end
-- ==== Proof.HostSide.lean ====
/-
  Reading the host side of the kernel's program at the exact-real instance: what the pipelined region finds in
  the arrays written before it (the weight matrices rounded to a narrower format, which at the exact reals is no
  rounding at all, and the label vector laid out as a column), and what the program's three results are as functions
  of the arrays the region leaves (a column read as a vector, and a column summed from zero), the arguments unchanged.
-/
import proofs.«139376_j80229989089777_2_alg».proof.Proof.Gen.KernelIdeal.Frame
import proofs.«139376_j80229989089777_2_alg».proof.Proof.Spec
import Idealize.ShloMosaic.Lib.Pipeline.Value
import Idealize.ShloMosaic.Lib.StableHlo.Run
import Idealize.ShloMosaic.PureOps.Ideal.Laws

noncomputable section

namespace Cert.KernelIdeal.HostSide

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-! ## Two layouts of one column, and a sum over a vector's indices -/

/-- A sum over the index set of a vector is the sum over its one coordinate. -/
theorem sum_idx1 {n : Nat} (f : (⟨1, ![n]⟩ : Shape).Idx → EReal) : ∑ i, f i = ∑ p : Fin n, f (ix1 p) :=
  Fintype.sum_equiv ⟨fun i => i 0, ix1, fun i => (eq_ix1 i).symm, fun _ => rfl⟩ f (fun p => f (ix1 p))
    (fun i => congrArg f (eq_ix1 i))

/-- A column [n, 1] laid out as a vector [n] reads, at i, the column's entry (i, 0): the two positions are the same
    place of the row-major order. -/
theorem col_as_vec_apply {n : Nat} (A : (⟨2, ![n, 1]⟩ : Shape).Idx → EReal)
    (h : (⟨2, ![n, 1]⟩ : Shape).ShapeCasts ⟨1, ![n]⟩) (i : (⟨1, ![n]⟩ : Shape).Idx) :
    shapeCast ⟨1, ![n]⟩ A h i = A (ix2 (i 0) (0 : Fin 1)) :=
  shapeCast_apply A h i (ix2 (i 0) (0 : Fin 1)) (by
    rw [Shape.rowMajor_val_two, Shape.rowMajor_val_one]
    show (i 0).val * 1 + 0 = (i 0).val
    omega)

/-- A vector [n] laid out as a column [n, 1] reads, at i, the vector's entry i 0: the column's second coordinate is 0. -/
theorem vec_as_col_apply {n : Nat} (A : (⟨1, ![n]⟩ : Shape).Idx → EReal)
    (h : (⟨1, ![n]⟩ : Shape).ShapeCasts ⟨2, ![n, 1]⟩) (i : (⟨2, ![n, 1]⟩ : Shape).Idx) :
    shapeCast ⟨2, ![n, 1]⟩ A h i = A (ix1 (i 0)) :=
  shapeCast_apply A h i (ix1 (i 0)) (by
    rw [Shape.rowMajor_val_two, Shape.rowMajor_val_one]
    have h1 := idx2_lt1 i
    show (i 0).val = (i 0).val * 1 + (i 1).val
    omega)

/-! ## What the region finds in the arrays written before it -/

theorem V_v0 (c : Dev nD) : (V m c main_v0 : Cert.Spec.A2 1024 1024) = m ((c.tc : Thread nD τ).loc main_arg4) := by
  show StableHlo.after hostOps0 (fun b => m (c, b)) (Proc.devRef .tc main_v0) = _
  after_results
  rfl
theorem V_v1 (c : Dev nD) : (V m c main_v1 : Cert.Spec.A2 1024 4096) = m ((c.tc : Thread nD τ).loc main_arg6) := by
  show StableHlo.after hostOps0 (fun b => m (c, b)) (Proc.devRef .tc main_v1) = _
  after_results
  rfl
theorem V_v2 (c : Dev nD) : (V m c main_v2 : Cert.Spec.A2 2048 1024) = m ((c.tc : Thread nD τ).loc main_arg8) := by
  show StableHlo.after hostOps0 (fun b => m (c, b)) (Proc.devRef .tc main_v2) = _
  after_results
  rfl
theorem V_v3 (c : Dev nD) (i : S4096x1.Idx) : V m c main_v3 i = m ((c.tc : Thread nD τ).loc main_arg3) (ix1 (i 0)) := by
  have e : V m c main_v3 = shapeCast S4096x1 (m ((c.tc : Thread nD τ).loc main_arg3)) shapeCasts_S4096_S4096x1 := by
    show StableHlo.after hostOps0 (fun b => m (c, b)) (Proc.devRef .tc main_v3) = _
    after_results
    rfl
  exact (congrFun e i).trans (vec_as_col_apply _ shapeCasts_S4096_S4096x1 i)

/-! ## The operations after the region -/

/-- The operations after the region find, in the prediction column's and the cross-entropy column's arrays, what the
    region leaves there. -/
theorem left11 (c : Dev nD) :
    Pipeline.withArrays (cfgs 0).spec c (V0 m c) (fun w => (dats (F := Ideal) m 0 c).arrAt w (cfgs 0).N) (Proc.devRef .tc main_v4_1)
      = (dats (F := Ideal) m 0 c).arrAt 11 cfg0.N :=
  Pipeline.withArrays_arr spec0 launch0.win.arr_inj c _ _ 11
theorem left12 (c : Dev nD) :
    Pipeline.withArrays (cfgs 0).spec c (V0 m c) (fun w => (dats (F := Ideal) m 0 c).arrAt w (cfgs 0).N) (Proc.devRef .tc main_v4_2)
      = (dats (F := Ideal) m 0 c).arrAt 12 cfg0.N :=
  Pipeline.withArrays_arr spec0 launch0.win.arr_inj c _ _ 12

/-- The prediction vector: the prediction column the region leaves, entry i of the vector the column's entry (i, 0). -/
theorem W_v5 (c : Dev nD) : Pipeline.afterTail₀ cfgs (dats (F := Ideal) m) 0 (V0 m) [hostOps1] c main_v5
    = (fun i : S4096.Idx => (dats (F := Ideal) m 0 c).arrAt 11 cfg0.N (ix2 (i 0) (0 : Fin 1))) := by
  unfold Pipeline.afterTail₀
  show StableHlo.after hostOps1 _ (Proc.devRef .tc main_v5) = _
  after_results
  funext i
  exact (col_as_vec_apply _ shapeCasts_S4096x1_S4096 i).trans (congrFun (left11 m c) _)

/-- The error: the cross-entropy column the region leaves, read as a vector and summed from the zero word, which is
    the real 0; at the exact reals the sum over all of a vector is the initial value plus the sum of the entries. -/
theorem W_v7 (c : Dev nD) : Pipeline.afterTail₀ cfgs (dats (F := Ideal) m) 0 (V0 m) [hostOps1] c main_v7
    = (fun _ : S_.Idx => ((∑ p : Fin 4096, ((dats (F := Ideal) m 0 c).arrAt 12 cfg0.N (ix2 p (0 : Fin 1)) : EReal) : EReal))) := by
  unfold Pipeline.afterTail₀
  show StableHlo.after hostOps1 _ (Proc.devRef .tc main_v7) = _
  after_results
  funext j
  simp only [Host.reduceAdd, Ideal.hostReduceAdd_def]
  refine (Ideal.hostReduceAdd_total reducesTo_S4096_S_d0 (fun b => b.elim0) _ _ j).trans ?_
  have e0 : (constant (F := Ideal) S_ .f32 0x00000000#32 (Shape.Idx.first h_S_) : EReal) = 0 := Ideal.ofBits_zero_f32
  rw [e0, zero_add]
  refine (sum_idx1 _).trans (Finset.sum_congr rfl fun p _ => ?_)
  exact (col_as_vec_apply _ shapeCasts_S4096x1_S4096 (ix1 p)).trans (congrFun (left12 m c) _)

/-- The program's run read at its three results and its ten arguments: the prediction vector and the error as above,
    the new state the array the region leaves, and no argument written. -/
theorem run_arrays : θ_run defs (onTc (τ := τ) (main (F := Ideal))) ⟨m, fun _ => 0, ρ⟩ fun r => ∀ c : Dev nD,
      r.2.mem ((c.tc : Thread nD τ).loc main_v5) = (fun i : S4096.Idx => (dats (F := Ideal) m 0 c).arrAt 11 cfg0.N (ix2 (i 0) (0 : Fin 1)))
      ∧ r.2.mem ((c.tc : Thread nD τ).loc main_v7) = (fun _ : S_.Idx => ((∑ p : Fin 4096, ((dats (F := Ideal) m 0 c).arrAt 12 cfg0.N (ix2 p (0 : Fin 1)) : EReal) : EReal)))
      ∧ r.2.mem ((c.tc : Thread nD τ).loc main_v4_0) = (dats (F := Ideal) m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v5 (Pipeline.mem_restRefs_of main_v5 (by decide) (by decide))).trans (W_v5 m c),
      ((h c).2 main_v7 (Pipeline.mem_restRefs_of main_v7 (by decide) (by decide))).trans (W_v7 m c),
      (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 8).trans (((dats m 0 c).arrAt_in 8 rfl _).trans ((A_eq m c 8).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c))),
      (((h c).2 main_arg8 (Pipeline.mem_restRefs_of main_arg8 (by decide) (by decide))).trans (W_main_arg8 m (dats m) c)),
      ((h c).1 7).trans (((dats m 0 c).arrAt_in 7 rfl _).trans ((A_eq m c 7).trans (V_main_arg9 m c)))⟩) (run_main m ρ)

end Cert.KernelIdeal.HostSide

end
-- ==== Proof.KernelRun.lean ====
/-
  The kernel's run, read: its three results as functions of its ten arguments.

  The region leaves three arrays, each one whole-array function of what it found (the hidden state, the prediction
  column, the cross-entropy column); what it found are the arguments themselves, the three weight matrices through a
  change of format that is the identity over the extended reals, and the labels reshaped to a column.  After the
  region the prediction column is reshaped to a vector, and the cross-entropy column is reshaped and summed from
  zero: the error is the sum over the rows of each row's cross entropy.
-/
import proofs.«139376_j80229989089777_2_alg».proof.Proof.Blocks
import proofs.«139376_j80229989089777_2_alg».proof.Proof.HostSide

noncomputable section

namespace Cert.KernelIdeal.KernelRun

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v5) = Cert.Spec.predVec (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg2))
      ∧ r.2.mem ((c.tc : Thread nD τ).loc main_v7) = Cert.Spec.errArr (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg2)) (m ((c.tc : Thread nD τ).loc main_arg3))
      ∧ r.2.mem ((c.tc : Thread nD τ).loc main_v4_0) = Cert.Spec.hiddenArr (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => by
    obtain ⟨h5, h7, h10, hkept⟩ := h c
    refine ⟨?_, ?_, ?_, hkept⟩
    · rw [h5, Cert.KernelIdeal.Blocks.final11 m c, V_main_arg0 m c, V_main_arg1 m c, Cert.KernelIdeal.HostSide.V_v0 m c, V_main_arg5 m c,
        Cert.KernelIdeal.HostSide.V_v1 m c, V_main_arg7 m c, Cert.KernelIdeal.HostSide.V_v2 m c, V_main_arg9 m c, V_main_arg2 m c]
      rfl
    · rw [h7]
      funext _
      unfold Cert.Spec.errArr Cert.Spec.errSum
      refine Finset.sum_congr rfl fun p _ => ?_
      rw [Cert.KernelIdeal.Blocks.final12 m c]
      unfold Cert.Spec.bceCol
      rw [Cert.KernelIdeal.HostSide.V_v3 m c (ix2 p (0 : Fin 1)), V_main_arg0 m c, V_main_arg1 m c, Cert.KernelIdeal.HostSide.V_v0 m c, V_main_arg5 m c,
        Cert.KernelIdeal.HostSide.V_v1 m c, V_main_arg7 m c, Cert.KernelIdeal.HostSide.V_v2 m c, V_main_arg9 m c, V_main_arg2 m c]
    · rw [h10, Cert.KernelIdeal.Blocks.final10 m c, V_main_arg0 m c, V_main_arg1 m c, Cert.KernelIdeal.HostSide.V_v0 m c, V_main_arg5 m c,
        Cert.KernelIdeal.HostSide.V_v1 m c, V_main_arg7 m c])
    (Cert.KernelIdeal.HostSide.run_arrays m ρ)

end Cert.KernelIdeal.KernelRun

end
-- ==== Proof.RefHidden.lean ====
/-
  The reference program's hidden state and prediction vector are the specification's arrays, over the extended reals.

  Entry (p, q) of the hidden state: the reference computes tanh ((A + b_t(q)) + (C + b_x(q))) with
  A = sum_k s(p,k) W_t(q,k) and C = sum_k x(p,k) W_x(q,k), each transposed weight read back through the transpose and
  each product a contraction of axis 1 with axis 0; the specification groups the same four summands as
  ((A + C) + b_t(q)) + b_x(q).  The two groupings are equal by commutativity and associativity of the sum alone, which
  hold on the extended reals without any finiteness.

  The prediction of row p: the reference computes 0 + sum_j (1 / (1 + exp (-(sum_k h(p,k) W_y(j,k) + b_y(j))))) * y(p,j),
  the literal 1 being the real 1 and the initial value of the sum the real 0; 1 / (1 + exp (-z)) is the logistic
  function of z by definition, and h is the hidden state of the first lemma.
-/
import proofs.«139376_j80229989089777_2_alg».proof.Proof.Gen.ReferenceIdeal.Read
import proofs.«139376_j80229989089777_2_alg».proof.Proof.Spec
import Idealize.ShloMosaic.Lib.IdealHost

noncomputable section

namespace Cert.ReferenceIdeal.RefValue

open Idealize.ShloMosaic Idealize.ShloMosaic.ValueIdx Cert.ReferenceIdeal Cert.ReferenceIdeal.Read

/-- The specification's hidden-state array at the index with coordinates p, q is the entry (p, q). -/
theorem hiddenArr_ix2 (x0 : Cert.Spec.A2 4096 1024) (x1 : Cert.Spec.A2 4096 4096) (x4 : Cert.Spec.A2 1024 1024)
    (x5 : Cert.Spec.A1 1024) (x6 : Cert.Spec.A2 1024 4096) (x7 : Cert.Spec.A1 1024) (p : Fin 4096) (q : Fin 1024) :
    Cert.Spec.hiddenArr x0 x1 x4 x5 x6 x7 (ix2 p q) = Cert.Spec.hiddenAt x0 x1 x4 x5 x6 x7 p q := rfl

theorem hidden_eq (x0 : (⟨S4096x1024, .f32⟩ : BufTy).Contents (Elt Ideal)) (x1 : (⟨S4096x4096, .f32⟩ : BufTy).Contents (Elt Ideal))
    (x4 : (⟨S1024x1024, .f32⟩ : BufTy).Contents (Elt Ideal)) (x5 : (⟨S1024, .f32⟩ : BufTy).Contents (Elt Ideal))
    (x6 : (⟨S1024x4096, .f32⟩ : BufTy).Contents (Elt Ideal)) (x7 : (⟨S1024, .f32⟩ : BufTy).Contents (Elt Ideal)) :
    val_main_v11 (F := Ideal) x0 x1 x4 x5 x6 x7 = Cert.Spec.hiddenArr x0 x1 x4 x5 x6 x7 := by
  funext i
  obtain ⟨p, q, rfl⟩ : ∃ (p : Fin 4096) (q : Fin 1024), i = ix2 p q := ⟨i 0, i 1, eq_ix2 i⟩
  -- the composed index maps of the layout operations, at the index (p, q) and the contracted position k
  have e1 : ∀ k : Fin 1024, lidx_main_v1 (ix2 p q) k = ix2 p k := fun k =>
    funext fun a => Fin.ext (by match a with | ⟨0, _⟩ => rfl | ⟨1, _⟩ => rfl)
  have e0 : ∀ k : Fin 1024, idx_main_v0 (ridx_main_v1 (ix2 p q) k) = ix2 q k := fun k =>
    funext fun a => Fin.ext (by match a with | ⟨0, _⟩ => rfl | ⟨1, _⟩ => rfl)
  have e3 : idx_main_v2 (idx_main_v3 (ix2 p q)) = ix1 q :=
    funext fun a => Fin.ext (by match a with | ⟨0, _⟩ => rfl)
  have e6 : ∀ k : Fin 4096, lidx_main_v6 (ix2 p q) k = ix2 p k := fun k =>
    funext fun a => Fin.ext (by match a with | ⟨0, _⟩ => rfl | ⟨1, _⟩ => rfl)
  have e5 : ∀ k : Fin 4096, idx_main_v5 (ridx_main_v6 (ix2 p q) k) = ix2 q k := fun k =>
    funext fun a => Fin.ext (by match a with | ⟨0, _⟩ => rfl | ⟨1, _⟩ => rfl)
  have e8 : idx_main_v7 (idx_main_v8 (ix2 p q)) = ix1 q :=
    funext fun a => Fin.ext (by match a with | ⟨0, _⟩ => rfl)
  rw [val_main_v11_apply, val_main_v10_apply, val_main_v4_apply, val_main_v9_apply, val_main_v1_apply, val_main_v3_apply,
    val_main_v2_apply, val_main_v6_apply, val_main_v8_apply, val_main_v7_apply]
  simp only [val_main_v0_apply, val_main_v5_apply, e1, e0, e3, e6, e5, e8, Ideal.addf_def, Ideal.hostUnary_tanh_def]
  rw [hiddenArr_ix2]
  unfold Cert.Spec.hiddenAt Cert.Spec.hiddenRow
  -- (A + b) + (C + d) = ((A + C) + b) + d, by commutativity and associativity of the sum alone
  exact congrArg Ideal.tanh ((add_add_add_comm _ _ _ _).trans (add_assoc _ _ _).symm)

/-- The specification's prediction vector at the index with coordinate p is the prediction of row p. -/
theorem predVec_ix1 (x0 : Cert.Spec.A2 4096 1024) (x1 : Cert.Spec.A2 4096 4096) (x4 : Cert.Spec.A2 1024 1024)
    (x5 : Cert.Spec.A1 1024) (x6 : Cert.Spec.A2 1024 4096) (x7 : Cert.Spec.A1 1024) (x8 : Cert.Spec.A2 2048 1024)
    (x9 : Cert.Spec.A1 2048) (x2 : Cert.Spec.A2 4096 2048) (p : Fin 4096) :
    Cert.Spec.predVec x0 x1 x4 x5 x6 x7 x8 x9 x2 (ix1 p) = Cert.Spec.predAt x0 x1 x4 x5 x6 x7 x8 x9 x2 p := rfl

theorem pred_eq (x0 : (⟨S4096x1024, .f32⟩ : BufTy).Contents (Elt Ideal)) (x1 : (⟨S4096x4096, .f32⟩ : BufTy).Contents (Elt Ideal))
    (x2 : (⟨S4096x2048, .f32⟩ : BufTy).Contents (Elt Ideal))
    (x4 : (⟨S1024x1024, .f32⟩ : BufTy).Contents (Elt Ideal)) (x5 : (⟨S1024, .f32⟩ : BufTy).Contents (Elt Ideal))
    (x6 : (⟨S1024x4096, .f32⟩ : BufTy).Contents (Elt Ideal)) (x7 : (⟨S1024, .f32⟩ : BufTy).Contents (Elt Ideal))
    (x8 : (⟨S2048x1024, .f32⟩ : BufTy).Contents (Elt Ideal)) (x9 : (⟨S2048, .f32⟩ : BufTy).Contents (Elt Ideal)) :
    val_main_v24 (F := Ideal) x0 x1 x2 x4 x5 x6 x7 x8 x9 = Cert.Spec.predVec x0 x1 x4 x5 x6 x7 x8 x9 x2 := by
  funext i
  obtain ⟨p, rfl⟩ : ∃ (p : Fin 4096), i = ix1 p := ⟨i 0, eq_ix1 i⟩
  have e24 : ∀ j : Fin 2048, idx_main_v24 (ix1 p) j = ix2 p j := fun j =>
    funext fun a => Fin.ext (by match a with | ⟨0, _⟩ => rfl | ⟨1, _⟩ => rfl)
  have e13 : ∀ (j : Fin 2048) (k : Fin 1024), lidx_main_v13 (ix2 p j) k = ix2 p k := fun j k =>
    funext fun a => Fin.ext (by match a with | ⟨0, _⟩ => rfl | ⟨1, _⟩ => rfl)
  have e12 : ∀ (j : Fin 2048) (k : Fin 1024), idx_main_v12 (ridx_main_v13 (ix2 p j) k) = ix2 j k := fun j k =>
    funext fun a => Fin.ext (by match a with | ⟨0, _⟩ => rfl | ⟨1, _⟩ => rfl)
  have e15 : ∀ j : Fin 2048, idx_main_v14 (idx_main_v15 (ix2 p j)) = ix1 j := fun j =>
    funext fun a => Fin.ext (by match a with | ⟨0, _⟩ => rfl)
  rw [val_main_v24_apply, val_main_cst_1_apply]
  simp only [e24, val_main_v23_apply, val_main_v22_apply, val_main_v21_apply, val_main_cst_0_apply, val_main_v20_apply,
    val_main_v19_apply, val_main_cst_apply, val_main_v18_apply, val_main_v17_apply, val_main_v16_apply, val_main_v13_apply,
    val_main_v15_apply, val_main_v14_apply, val_main_v12_apply, hidden_eq, e13, e12, e15, hiddenArr_ix2,
    Ideal.ofBits_def, Ideal.ofBits_zero_f32, Ideal.ofBits_one_f32, zero_add, Ideal.hostDivf_def, Ideal.hostNegf_def,
    Ideal.negf_def, Ideal.hostUnary_exp_def, Ideal.addf_def, Ideal.mulf_def]
  rw [predVec_ix1]
  unfold Cert.Spec.predAt Cert.Spec.predRow Ideal.logistic
  -- 1 / (1 + exp (-z)) is the logistic function of z by definition
  rfl

end Cert.ReferenceIdeal.RefValue

end
-- ==== Proof.RefErr.lean ====
/-
  The reference program's error is the specification's error.

  At the exact-real instance the reference's rank-0 result is

    -( 0 + sum_p ( t(p) * max (log pred(p)) (-100) + (1 - t(p)) * max (log1p (-pred(p))) (-100) ) ),

  with pred the reference's own prediction vector and t the labels.  The specification writes the same number as

    -( sum_p loss (pred p) (t p) ),   loss pr t = t * max (log pr) (-100) + (1 - t) * max (log1p (0 - pr)) (-100).

  The two differ in spelling only: the sum's initial value is the zero word, which is the real 0; a sum over a
  rank-1 index set is the sum over its one coordinate; and on the extended reals 0 - a = -a.  The literals 1 and
  -100 are the same words on both sides and are never evaluated.  That the reference's prediction vector is the
  specification's is a separate lemma, used here as a hypothesis and discharged at the end.
-/
import proofs.«139376_j80229989089777_2_alg».proof.Proof.Gen.ReferenceIdeal.Read
import proofs.«139376_j80229989089777_2_alg».proof.Proof.Spec
import proofs.«139376_j80229989089777_2_alg».proof.Proof.RefHidden

noncomputable section

namespace Cert.ReferenceIdeal.RefValue

open Idealize.ShloMosaic Idealize.ShloMosaic.ValueIdx Cert.ReferenceIdeal Cert.ReferenceIdeal.Read

/-- A rank-1 index set is its one coordinate range, so a sum over it is the sum over the coordinate. -/
private theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ (fun i => ?_)
  exact congrArg f (eq_ix1 i)

/-- The error of the reference, given that its prediction vector is the specification's: negate, drop the zero
    initial value, sum over the coordinate, and compare the summands row by row. -/
private theorem err_eq_of (x0 : (⟨S4096x1024, .f32⟩ : BufTy).Contents (Elt Ideal)) (x1 : (⟨S4096x4096, .f32⟩ : BufTy).Contents (Elt Ideal))
    (x2 : (⟨S4096x2048, .f32⟩ : BufTy).Contents (Elt Ideal)) (x3 : (⟨S4096, .f32⟩ : BufTy).Contents (Elt Ideal))
    (x4 : (⟨S1024x1024, .f32⟩ : BufTy).Contents (Elt Ideal)) (x5 : (⟨S1024, .f32⟩ : BufTy).Contents (Elt Ideal))
    (x6 : (⟨S1024x4096, .f32⟩ : BufTy).Contents (Elt Ideal)) (x7 : (⟨S1024, .f32⟩ : BufTy).Contents (Elt Ideal))
    (x8 : (⟨S2048x1024, .f32⟩ : BufTy).Contents (Elt Ideal)) (x9 : (⟨S2048, .f32⟩ : BufTy).Contents (Elt Ideal))
    (hpred : val_main_v24 (F := Ideal) x0 x1 x2 x4 x5 x6 x7 x8 x9 = Cert.Spec.predVec x0 x1 x4 x5 x6 x7 x8 x9 x2) :
    val_main_v38 (F := Ideal) x0 x1 x2 x3 x4 x5 x6 x7 x8 x9 = fun _ => Cert.Spec.errNeg x0 x1 x4 x5 x6 x7 x8 x9 x2 x3 := by
  funext i
  -- the result is the negated sum; its initial value is the zero word, the real 0
  rw [val_main_v38_apply, val_main_v37_apply, val_main_cst_5_apply, sum_idx1]
  simp only [Ideal.hostNegf_def, Ideal.negf_def, Ideal.ofBits_def, Ideal.ofBits_zero_f32, zero_add]
  unfold Cert.Spec.errNeg
  refine congrArg Neg.neg (Finset.sum_congr rfl fun p _ => ?_)
  -- row p: read every operation at the index p, down to the prediction and the label
  rw [val_main_v36_apply, val_main_v32_apply, val_main_v35_apply, val_main_v34_apply, val_main_v33_apply,
    val_main_cst_4_apply, val_main_v27_apply, val_main_v31_apply, val_main_v25_apply, val_main_v29_apply,
    val_main_v28_apply, val_main_v26_apply, val_main_v30_apply, val_main_cst_2_apply, val_main_cst_3_apply, hpred]
  -- the prediction vector at the index with coordinate p is the prediction of row p
  have hp : Cert.Spec.predVec x0 x1 x4 x5 x6 x7 x8 x9 x2 (ix1 p) = Cert.Spec.predAt x0 x1 x4 x5 x6 x7 x8 x9 x2 p := rfl
  rw [hp]
  simp only [Ideal.addf_def, Ideal.mulf_def, Ideal.subf_def, Ideal.maximumf_def, Ideal.hostUnary_log_def,
    Ideal.hostUnary_log1p_def, Ideal.hostNegf_def, Ideal.negf_def, Ideal.ofBits_def]
  unfold Cert.Spec.loss
  -- 0 - a = -a on the extended reals; what is left is the same expression on both sides
  rw [zero_sub]

theorem err_eq (x0 : (⟨S4096x1024, .f32⟩ : BufTy).Contents (Elt Ideal)) (x1 : (⟨S4096x4096, .f32⟩ : BufTy).Contents (Elt Ideal))
    (x2 : (⟨S4096x2048, .f32⟩ : BufTy).Contents (Elt Ideal)) (x3 : (⟨S4096, .f32⟩ : BufTy).Contents (Elt Ideal))
    (x4 : (⟨S1024x1024, .f32⟩ : BufTy).Contents (Elt Ideal)) (x5 : (⟨S1024, .f32⟩ : BufTy).Contents (Elt Ideal))
    (x6 : (⟨S1024x4096, .f32⟩ : BufTy).Contents (Elt Ideal)) (x7 : (⟨S1024, .f32⟩ : BufTy).Contents (Elt Ideal))
    (x8 : (⟨S2048x1024, .f32⟩ : BufTy).Contents (Elt Ideal)) (x9 : (⟨S2048, .f32⟩ : BufTy).Contents (Elt Ideal)) :
    val_main_v38 (F := Ideal) x0 x1 x2 x3 x4 x5 x6 x7 x8 x9 = fun _ => Cert.Spec.errNeg x0 x1 x4 x5 x6 x7 x8 x9 x2 x3 :=
  err_eq_of x0 x1 x2 x3 x4 x5 x6 x7 x8 x9 (pred_eq x0 x1 x2 x4 x5 x6 x7 x8 x9)

end Cert.ReferenceIdeal.RefValue

end
-- ==== Proof.Finite.lean ====
/-
  What the precondition gives: every label and every entry of the question vectors is a real number.

  The precondition is the conjunction, over the ten arguments, of "every entry x has |x| < +inf".  On the extended
  reals |x| = max x (-x), and max x (-x) < +inf excludes both infinities, so x is the image of a real.  Only the
  two arguments whose finiteness the bridge uses are read out: the question vectors and the labels.
-/
import proofs.«139376_j80229989089777_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

/-- A rank-0 array has one index. -/
instance : Subsingleton S_.Idx := ⟨fun a b => funext fun d => d.elim0⟩

/-- The single-precision pattern of +inf denotes the top element. -/
theorem inf_word : Ideal.ofBits .f32 0x7F800000#32 = (⊤ : EReal) := by simp [Ideal.ofBits, Ideal.ieee]

/-- An extended real whose absolute value is below +inf is a real. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    by_contra hn
    simp only [Ideal.cmp, hn, decide_false, BitVec.ofBool_false] at h
    exact absurd h (by decide)
  induction x using EReal.rec with
  | bot => simp at hlt
  | coe r => exact ⟨r, rfl⟩
  | top => simp at hlt

variable [Cert.Pre_finite_inputs.Facts]

/-- Under the precondition the question vectors and the labels hold reals only. -/
theorem reals_of_pre (x0 : FVec Ideal S4096x1024 .f32) (x1 : FVec Ideal S4096x4096 .f32) (x2 : FVec Ideal S4096x2048 .f32)
    (x3 : FVec Ideal S4096 .f32) (x4 : FVec Ideal S1024x1024 .f32) (x5 : FVec Ideal S1024 .f32) (x6 : FVec Ideal S1024x4096 .f32)
    (x7 : FVec Ideal S1024 .f32) (x8 : FVec Ideal S2048x1024 .f32) (x9 : FVec Ideal S2048 .f32)
    (h : Cert.Pre_finite_inputs.fn (F := Ideal) x0 x1 x2 x3 x4 x5 x6 x7 x8 x9 = fun _ => 1#1) :
    (∀ i, ∃ r : ℝ, x2 i = (r : EReal)) ∧ (∀ i, ∃ r : ℝ, x3 i = (r : EReal)) := by
  have h0 := congrFun h ValueIdx.ix0
  dsimp only [fn, fn_part1, fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h3⟩ := IntOp.andi_eq_one.1 h0
  obtain ⟨-, h2⟩ := IntOp.andi_eq_one.1 h0
  exact ⟨fun i => real_of_abs_lt (x2 i) (Host.reduce_andi_all _ _ _ _ _ h2 i),
    fun i => real_of_abs_lt (x3 i) (Host.reduce_andi_all _ _ _ _ _ h3 i)⟩

end Cert.Finite

end
-- ==== Proof.Algebra.lean ====
/-
  The one law of the bridge that needs finiteness, and the real-valuedness it rests on.

  The kernel negates each row's log-likelihood before summing, the reference sums first and negates once:
  sum_p (0 - L p) against -(sum_p L p).  On the extended reals -(a + b) = -a + -b fails when a and b are opposite
  infinities, so the identity is proved for REAL terms L p.  Each L p is real because: the logistic function takes
  values in [0, 1] everywhere (0 at -inf, 1 at +inf), so a prediction, a finite sum of logistic values times real
  question-vector entries, is real; the logarithm of a real is real or -inf, so clamped from below at -100 it is
  real; and the label is real.
-/
import proofs.«139376_j80229989089777_2_alg».proof.Proof.Spec

noncomputable section

namespace Cert.Algebra

open Idealize.ShloMosaic Idealize.ShloMosaic.ValueIdx Cert.Spec

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logistic function is real-valued on all of the extended reals. -/
theorem logistic_real (z : EReal) : ∃ r : ℝ, Ideal.logistic z = (r : EReal) := by
  induction z using EReal.rec with
  | bot => exact ⟨0, by rw [Ideal.logistic_bot]; rfl⟩
  | coe r => exact ⟨_, Ideal.logistic_coe r⟩
  | top => exact ⟨1, by rw [Ideal.logistic_top]; rfl⟩

/-- A prediction over real question-vector entries is real. -/
theorem predRow_real (h : Fin 1024 → EReal) (Wy : Fin 2048 → Fin 1024 → EReal) (bq : Fin 2048 → EReal) (y : Fin 2048 → EReal)
    (hy : ∀ j, ∃ r : ℝ, y j = (r : EReal)) : ∃ r : ℝ, predRow h Wy bq y = (r : EReal) := by
  choose l hl using fun j => logistic_real ((∑ k : Fin 1024, h k * Wy j k) + bq j)
  choose yr hyr using hy
  refine ⟨∑ j : Fin 2048, l j * yr j, ?_⟩
  unfold predRow
  rw [← coe_sum]
  refine Finset.sum_congr rfl fun j _ => ?_
  rw [hl j, hyr j, EReal.coe_mul]

/-- A single-precision pattern whose exponent field is not all ones denotes a real. -/
theorem word_real (b : BitVec 32) (hb : (b.extractLsb' 23 8).toNat ≠ 2 ^ 8 - 1) : ∃ r : ℝ, Ideal.ofBits .f32 b = (r : EReal) := by
  unfold Ideal.ofBits Ideal.ieee
  dsimp only
  rw [if_neg hb]
  split <;> exact ⟨_, rfl⟩

theorem cM100_real : ∃ r : ℝ, cM100 = (r : EReal) := word_real _ (by decide)
theorem cOne_real : ∃ r : ℝ, cOne = (r : EReal) := word_real _ (by decide)

/-- The logarithm of a real, clamped from below at a real, is real. -/
theorem max_log_real (x c : ℝ) : ∃ r : ℝ, max (Ideal.log (x : EReal)) (c : EReal) = (r : EReal) := by
  rw [Ideal.log_coe]
  split
  · exact ⟨c, max_eq_right bot_le⟩
  · exact ⟨max (Real.log x) c, (EReal.coe_strictMono.monotone.map_max).symm⟩

/-- A row's log-likelihood is real when its prediction and its label are. -/
theorem loss_real (pr t : EReal) (hpr : ∃ r : ℝ, pr = (r : EReal)) (ht : ∃ r : ℝ, t = (r : EReal)) :
    ∃ r : ℝ, loss pr t = (r : EReal) := by
  obtain ⟨p, rfl⟩ := hpr
  obtain ⟨τ, rfl⟩ := ht
  obtain ⟨c, hc⟩ := cM100_real
  obtain ⟨o, ho⟩ := cOne_real
  unfold loss
  rw [hc, ho]
  obtain ⟨a, ha⟩ := max_log_real p c
  have h1 : Ideal.log1p ((0 : EReal) - (p : EReal)) = Ideal.log (((1 + (0 - p) : ℝ)) : EReal) := by
    unfold Ideal.log1p
    norm_cast
  obtain ⟨b, hb⟩ := max_log_real (1 + (0 - p)) c
  rw [ha, h1, hb]
  exact ⟨τ * a + (o - τ) * b, by norm_cast⟩

/-- Negating real terms one by one and summing, or summing and negating once. -/
theorem sum_zero_sub {ι : Type} [Fintype ι] (L : ι → EReal) (hL : ∀ i, ∃ r : ℝ, L i = (r : EReal)) :
    ∑ i, (0 - L i) = -(∑ i, L i) := by
  choose l hl using hL
  have e1 : ∀ i, (0 : EReal) - L i = ((-(l i) : ℝ) : EReal) := fun i => by rw [hl i, zero_sub, EReal.coe_neg]
  rw [Finset.sum_congr rfl fun i _ => e1 i, Finset.sum_congr rfl fun i _ => hl i, coe_sum, coe_sum,
    Finset.sum_neg_distrib, EReal.coe_neg]

section Arrays

variable (st : A2 4096 1024) (X : A2 4096 4096) (Wt : A2 1024 1024) (bt : A1 1024) (Wx : A2 1024 4096) (bx : A1 1024)
  (Wy : A2 2048 1024) (bq : A1 2048) (Y : A2 4096 2048) (t : A1 4096)

/-- With real question vectors and real labels the two arrangements of the error agree. -/
theorem errSum_eq_errNeg (hY : ∀ i, ∃ r : ℝ, Y i = (r : EReal)) (ht : ∀ i, ∃ r : ℝ, t i = (r : EReal)) :
    errSum st X Wt bt Wx bx Wy bq Y t = errNeg st X Wt bt Wx bx Wy bq Y t := by
  unfold errSum errNeg bce
  exact sum_zero_sub _ fun p => loss_real _ _ (predRow_real _ _ _ _ fun j => hY _) (ht _)

end Arrays

end Cert.Algebra

end
-- ==== Proof.lean ====
/-
  One step of a recurrent student model with a binary cross entropy: a fused kernel against its plain reference.

  Both programs compute, from a state s, an input x, one-hot question vectors y and labels t,
    hidden = tanh(s W_t^T + x W_x^T + b_t + b_x),   pred(p) = sum_j logistic(hidden W_y^T + b_y)(p,j) y(p,j),
    err = - sum_p ( t(p) max(log pred(p), -100) + (1 - t(p)) max(log(1 - pred(p)), -100) ).
  Over the extended reals the two differ in three places only.  The four summands under the tanh are grouped
  differently: equal by commutativity and associativity of the sum.  The kernel's logistic unit is the reference's
  1 / (1 + exp(-z)) by definition.  The kernel negates every row's log-likelihood and then sums, the reference sums
  and negates once: equal because every row's log-likelihood is a REAL number, which is where the precondition
  (finite labels and finite question vectors) is used.
  The kernel's results are read off its run block by block, the reference's off its run operation by operation;
  both are the same three functions of the arguments.
-/
import proofs.«139376_j80229989089777_2_alg».proof.Defs
import proofs.«139376_j80229989089777_2_alg».proof.Proof.Gen.Kernel
import proofs.«139376_j80229989089777_2_alg».proof.Proof.Gen.Kernel.Frame
import proofs.«139376_j80229989089777_2_alg».proof.Proof.Gen.KernelIdeal
import proofs.«139376_j80229989089777_2_alg».proof.Proof.Gen.KernelIdeal.Frame
import proofs.«139376_j80229989089777_2_alg».proof.Proof.Gen.ReferenceIdeal
import proofs.«139376_j80229989089777_2_alg».proof.Proof.Gen.ReferenceIdeal.Run
import proofs.«139376_j80229989089777_2_alg».proof.Proof.Gen.ReferenceIdeal.Read
import proofs.«139376_j80229989089777_2_alg».proof.Proof.Gen.Pre_finite_inputs
import proofs.«139376_j80229989089777_2_alg».proof.Proof.KernelRun
import proofs.«139376_j80229989089777_2_alg».proof.Proof.RefHidden
import proofs.«139376_j80229989089777_2_alg».proof.Proof.RefErr
import proofs.«139376_j80229989089777_2_alg».proof.Proof.Finite
import proofs.«139376_j80229989089777_2_alg».proof.Proof.Algebra
import Idealize.ShloMosaic.Adequacy
import Idealize.ShloMosaic.Init

noncomputable section

namespace Cert.Proof

open Idealize.ShloMosaic Idealize.SL.Sem

/-- The printed kernel runs, faults nowhere and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the arguments both programs end with the predictions, the error and the hidden
    state at the same functions of the arguments. -/
theorem algebraic : Cert.algebraic_KernelIdeal_ReferenceIdeal := by
  intro m ρ m' ρ' hpre hagree
  refine ⟨fun c => Cert.Spec.predVec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2)),
    fun c => Cert.Spec.errArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KernelRun.run m ρ, ?_⟩
  refine (θ_run Cert.ReferenceIdeal.defs _ _).mono (fun _ h c => ?_) (Cert.ReferenceIdeal.Value.run (F := Ideal) m' ρ')
  obtain ⟨h24, h38, h11, hkept⟩ := h c
  obtain ⟨a0, a1, a2, a3, a4, a5, a6, a7, a8, a9⟩ := hagree c
  obtain ⟨hY, hT⟩ := Cert.Finite.reals_of_pre _ _ _ _ _ _ _ _ _ _ (hpre c)
  refine ⟨?_, ?_, ?_, hkept⟩
  · refine h24.trans ?_
    rw [Cert.ReferenceIdeal.Read.val_main_v24_eq, Cert.ReferenceIdeal.RefValue.pred_eq, a0, a1, a2, a4, a5, a6, a7, a8, a9]
  · refine h38.trans ?_
    rw [Cert.ReferenceIdeal.Read.val_main_v38_eq, Cert.ReferenceIdeal.RefValue.err_eq, a0, a1, a2, a3, a4, a5, a6, a7, a8, a9]
    funext _
    exact (Cert.Algebra.errSum_eq_errNeg _ _ _ _ _ _ _ _ _ _ hY hT).symm
  · refine h11.trans ?_
    rw [Cert.ReferenceIdeal.Read.val_main_v11_eq, Cert.ReferenceIdeal.RefValue.hidden_eq, a0, a1, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
